-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x4x4 : Shape := ⟨4, ![2048, 2, 4, 4]⟩
abbrev S2048x2x4x1 : Shape := ⟨4, ![2048, 2, 4, 1]⟩
abbrev S2048x2x14336 : Shape := ⟨3, ![2048, 2, 14336]⟩
abbrev S2048x2x3584 : Shape := ⟨3, ![2048, 2, 3584]⟩
abbrev S_ : Shape := ⟨0, ![]⟩

class Facts : Prop where
  bitsLt_bf16_f32 : FTy.bits .bf16 < FTy.bits .f32
  bcast_S_S2048x2x4x4 : S_.BroadcastsInDim S2048x2x4x4 (![] : Fin 0 → Fin S2048x2x4x4.rank)
  reducesTo_S2048x2x4x4_S_d0_1_2_3 : S2048x2x4x4.ReducesTo [0, 1, 2, 3] S_
  h_S_ : 0 < S_.numel
  bcast_S_S2048x2x4x1 : S_.BroadcastsInDim S2048x2x4x1 (![] : Fin 0 → Fin S2048x2x4x1.rank)
  reducesTo_S2048x2x4x1_S_d0_1_2_3 : S2048x2x4x1.ReducesTo [0, 1, 2, 3] S_
  bcast_S_S2048x2x14336 : S_.BroadcastsInDim S2048x2x14336 (![] : Fin 0 → Fin S2048x2x14336.rank)
  reducesTo_S2048x2x14336_S_d0_1_2 : S2048x2x14336.ReducesTo [0, 1, 2] S_
  bcast_S_S2048x2x3584 : S_.BroadcastsInDim S2048x2x3584 (![] : Fin 0 → Fin S2048x2x3584.rank)
  reducesTo_S2048x2x3584_S_d0_1_2 : S2048x2x3584.ReducesTo [0, 1, 2] S_

variable [Facts]

def fn_part1 {F : FTy → Type} [FloatOps F] (main_arg4 : FVec F S2048x2x14336 .bf16) (main_v16 : IVec S_ 1) (main_v17 : FVec F S2048x2x3584 .f32) : IVec S_ 1 :=
  let main_v18 : FVec F S2048x2x3584 .f32 := Host.absf main_v17
  let main_cst_4 : FVec F S_ .f32 := constant S_ .f32 0x7F800000#32
  let main_v19 : FVec F S2048x2x3584 .f32 := broadcastInDim S2048x2x3584 ![] bcast_S_S2048x2x3584 main_cst_4
  let main_v20 : IVec S2048x2x3584 1 := cmpf .olt main_v18 main_v19
  let main_c_5 : IVec S_ 1 := constantI S_ 1 1#1
  let main_v21 : IVec S_ 1 := (fun x v => Host.reduce IntOp.andi x v reducesTo_S2048x2x3584_S_d0_1_2 h_S_) main_v20 main_c_5
  let main_v22 : IVec S_ 1 := andi main_v16 main_v21
  let main_v23 : FVec F S2048x2x14336 .f32 := (extf .f32 · bitsLt_bf16_f32) main_arg4
  let main_v24 : FVec F S2048x2x14336 .f32 := Host.absf main_v23
  let main_cst_6 : FVec F S_ .f32 := constant S_ .f32 0x7F800000#32
  let main_v25 : FVec F S2048x2x14336 .f32 := broadcastInDim S2048x2x14336 ![] bcast_S_S2048x2x14336 main_cst_6
  let main_v26 : IVec S2048x2x14336 1 := cmpf .olt main_v24 main_v25
  let main_c_7 : IVec S_ 1 := constantI S_ 1 1#1
  let main_v27 : IVec S_ 1 := (fun x v => Host.reduce IntOp.andi x v reducesTo_S2048x2x14336_S_d0_1_2 h_S_) main_v26 main_c_7
  let main_v28 : IVec S_ 1 := andi main_v22 main_v27
  main_v28

def fn {F : FTy → Type} [FloatOps F] (main_arg0 : FVec F S2048x2x4x4 .bf16) (main_arg1 : FVec F S2048x2x4x1 .bf16) (main_arg2 : FVec F S2048x2x14336 .bf16) (main_arg3 : FVec F S2048x2x3584 .bf16) (main_arg4 : FVec F S2048x2x14336 .bf16) : IVec S_ 1 :=
  let main_v0 : FVec F S2048x2x4x4 .f32 := (extf .f32 · bitsLt_bf16_f32) main_arg0
  let main_v1 : FVec F S2048x2x4x4 .f32 := Host.absf main_v0
  let main_cst : FVec F S_ .f32 := constant S_ .f32 0x7F800000#32
  let main_v2 : FVec F S2048x2x4x4 .f32 := broadcastInDim S2048x2x4x4 ![] bcast_S_S2048x2x4x4 main_cst
  let main_v3 : IVec S2048x2x4x4 1 := cmpf .olt main_v1 main_v2
  let main_c : IVec S_ 1 := constantI S_ 1 1#1
  let main_v4 : IVec S_ 1 := (fun x v => Host.reduce IntOp.andi x v reducesTo_S2048x2x4x4_S_d0_1_2_3 h_S_) main_v3 main_c
  let main_v5 : FVec F S2048x2x4x1 .f32 := (extf .f32 · bitsLt_bf16_f32) main_arg1
  let main_v6 : FVec F S2048x2x4x1 .f32 := Host.absf main_v5
  let main_cst_0 : FVec F S_ .f32 := constant S_ .f32 0x7F800000#32
  let main_v7 : FVec F S2048x2x4x1 .f32 := broadcastInDim S2048x2x4x1 ![] bcast_S_S2048x2x4x1 main_cst_0
  let main_v8 : IVec S2048x2x4x1 1 := cmpf .olt main_v6 main_v7
  let main_c_1 : IVec S_ 1 := constantI S_ 1 1#1
  let main_v9 : IVec S_ 1 := (fun x v => Host.reduce IntOp.andi x v reducesTo_S2048x2x4x1_S_d0_1_2_3 h_S_) main_v8 main_c_1
  let main_v10 : IVec S_ 1 := andi main_v4 main_v9
  let main_v11 : FVec F S2048x2x14336 .f32 := (extf .f32 · bitsLt_bf16_f32) main_arg2
  let main_v12 : FVec F S2048x2x14336 .f32 := Host.absf main_v11
  let main_cst_2 : FVec F S_ .f32 := constant S_ .f32 0x7F800000#32
  let main_v13 : FVec F S2048x2x14336 .f32 := broadcastInDim S2048x2x14336 ![] bcast_S_S2048x2x14336 main_cst_2
  let main_v14 : IVec S2048x2x14336 1 := cmpf .olt main_v12 main_v13
  let main_c_3 : IVec S_ 1 := constantI S_ 1 1#1
  let main_v15 : IVec S_ 1 := (fun x v => Host.reduce IntOp.andi x v reducesTo_S2048x2x14336_S_d0_1_2 h_S_) main_v14 main_c_3
  let main_v16 : IVec S_ 1 := andi main_v10 main_v15
  let main_v17 : FVec F S2048x2x3584 .f32 := (extf .f32 · bitsLt_bf16_f32) main_arg3
  fn_part1 (F := F) main_arg4 main_v16 main_v17
-- ==== Kernel.lean ====
abbrev S2048x2x4x4 : Shape := ⟨4, ![2048, 2, 4, 4]⟩
abbrev S2048x2x4x1 : Shape := ⟨4, ![2048, 2, 4, 1]⟩
abbrev S2048x2x14336 : Shape := ⟨3, ![2048, 2, 14336]⟩
abbrev S2048x2x3584 : Shape := ⟨3, ![2048, 2, 3584]⟩
abbrev S4096x16 : Shape := ⟨2, ![4096, 16]⟩
abbrev S4096x4 : Shape := ⟨2, ![4096, 4]⟩
abbrev S4096x14336 : Shape := ⟨2, ![4096, 14336]⟩
abbrev S4096x3584 : Shape := ⟨2, ![4096, 3584]⟩
abbrev S128x16 : Shape := ⟨2, ![128, 16]⟩
abbrev S128x4 : Shape := ⟨2, ![128, 4]⟩
abbrev S128x14336 : Shape := ⟨2, ![128, 14336]⟩
abbrev S128x3584 : Shape := ⟨2, ![128, 3584]⟩
abbrev S128 : Shape := ⟨1, ![128]⟩
abbrev S128x1 : Shape := ⟨2, ![128, 1]⟩

abbrev nBuf : Space → Nat
  | .hbm => 18
  | .vmem => 18
  | .smem => 0
  | _ => 0

abbrev bufTy : (tb : Table) → Fin (tcTables nBuf tb) → BufTy
  | .hbm, ⟨0, _⟩ => ⟨S2048x2x4x4, .bf16⟩
  | .hbm, ⟨1, _⟩ => ⟨S2048x2x4x1, .bf16⟩
  | .hbm, ⟨2, _⟩ => ⟨S2048x2x14336, .bf16⟩
  | .hbm, ⟨3, _⟩ => ⟨S2048x2x3584, .bf16⟩
  | .hbm, ⟨4, _⟩ => ⟨S2048x2x14336, .bf16⟩
  | .hbm, ⟨5, _⟩ => ⟨S4096x16, .bf16⟩
  | .hbm, ⟨6, _⟩ => ⟨S4096x4, .bf16⟩
  | .hbm, ⟨7, _⟩ => ⟨S4096x14336, .bf16⟩
  | .hbm, ⟨8, _⟩ => ⟨S4096x14336, .bf16⟩
  | .hbm, ⟨9, _⟩ => ⟨S4096x3584, .bf16⟩
  | .hbm, ⟨10, _⟩ => ⟨S4096x16, .bf16⟩
  | .hbm, ⟨11, _⟩ => ⟨S4096x4, .bf16⟩
  | .hbm, ⟨12, _⟩ => ⟨S4096x14336, .bf16⟩
  | .hbm, ⟨13, _⟩ => ⟨S4096x3584, .bf16⟩
  | .hbm, ⟨14, _⟩ => ⟨S2048x2x4x4, .bf16⟩
  | .hbm, ⟨15, _⟩ => ⟨S2048x2x4x1, .bf16⟩
  | .hbm, ⟨16, _⟩ => ⟨S2048x2x14336, .bf16⟩
  | .hbm, ⟨17, _⟩ => ⟨S2048x2x3584, .bf16⟩
  | .local _ .vmem, ⟨0, _⟩ => ⟨S128x16, .bf16⟩
  | .local _ .vmem, ⟨1, _⟩ => ⟨S128x16, .bf16⟩
  | .local _ .vmem, ⟨2, _⟩ => ⟨S128x4, .bf16⟩
  | .local _ .vmem, ⟨3, _⟩ => ⟨S128x4, .bf16⟩
  | .local _ .vmem, ⟨4, _⟩ => ⟨S128x14336, .bf16⟩
  | .local _ .vmem, ⟨5, _⟩ => ⟨S128x14336, .bf16⟩
  | .local _ .vmem, ⟨6, _⟩ => ⟨S128x3584, .bf16⟩
  | .local _ .vmem, ⟨7, _⟩ => ⟨S128x3584, .bf16⟩
  | .local _ .vmem, ⟨8, _⟩ => ⟨S128x14336, .bf16⟩
  | .local _ .vmem, ⟨9, _⟩ => ⟨S128x14336, .bf16⟩
  | .local _ .vmem, ⟨10, _⟩ => ⟨S128x16, .bf16⟩
  | .local _ .vmem, ⟨11, _⟩ => ⟨S128x16, .bf16⟩
  | .local _ .vmem, ⟨12, _⟩ => ⟨S128x4, .bf16⟩
  | .local _ .vmem, ⟨13, _⟩ => ⟨S128x4, .bf16⟩
  | .local _ .vmem, ⟨14, _⟩ => ⟨S128x14336, .bf16⟩
  | .local _ .vmem, ⟨15, _⟩ => ⟨S128x14336, .bf16⟩
  | .local _ .vmem, ⟨16, _⟩ => ⟨S128x3584, .bf16⟩
  | .local _ .vmem, ⟨17, _⟩ => ⟨S128x3584, .bf16⟩
  | _, _ => ⟨S2048x2x4x4, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x14336 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x14336 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x14336 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S2048x2x4x4_S4096x16 : S2048x2x4x4.ShapeCasts S4096x16
  shapeCasts_S2048x2x4x1_S4096x4 : S2048x2x4x1.ShapeCasts S4096x4
  shapeCasts_S2048x2x14336_S4096x14336 : S2048x2x14336.ShapeCasts S4096x14336
  shapeCasts_S2048x2x3584_S4096x3584 : S2048x2x3584.ShapeCasts S4096x3584
  inb_S128x14336_S128x3584_0_0 : ∀ a, (![0, 0] : Fin 2 → Nat) a + S128x3584.size a ≤ S128x14336.size a
  h_S128x3584 : 0 < S128x3584.numel
  shapeCasts_S128x3584_S128x3584 : S128x3584.ShapeCasts S128x3584
  bitsLt_bf16_f32 : FTy.bits .bf16 < FTy.bits .f32
  inb_S128x14336_S128x3584_0_3584 : ∀ a, (![0, 3584] : Fin 2 → Nat) a + S128x3584.size a ≤ S128x14336.size a
  inb_S128x14336_S128x3584_0_7168 : ∀ a, (![0, 7168] : Fin 2 → Nat) a + S128x3584.size a ≤ S128x14336.size a
  inb_S128x14336_S128x3584_0_10752 : ∀ a, (![0, 10752] : Fin 2 → Nat) a + S128x3584.size a ≤ S128x14336.size a
  reduces_S128x3584_S128 : S128x3584.Reduces [1] S128
  shapeCasts_S128_S128x1 : S128.ShapeCasts S128x1
  concatenates_S128x1_S128x1_S128x1_S128x1_S128x1_S128x1_S128x1_S128x1_S128x1_S128x1_S128x1_S128x1_S128x1_S128x1_S128x1_S128x1_S128x16_d1 : Shape.Concatenates [S128x1, S128x1, S128x1, S128x1, S128x1, S128x1, S128x1, S128x1, S128x1, S128x1, S128x1, S128x1, S128x1, S128x1, S128x1, S128x1] S128x16 1
  inb_S128x16_S128x16_0_0 : ∀ a, (![0, 0] : Fin 2 → Nat) a + S128x16.size a ≤ S128x16.size a
  h_S128x16 : 0 < S128x16.numel
  packedbf16_S128x16_S128x16_0_0 : (Rect.unit (s := S128x16) ![0, 0] S128x16.size inb_S128x16_S128x16_0_0).PackedRows (EltTy.packing .bf16)
  inb_S128x3584_S128x3584_0_0 : ∀ a, (![0, 0] : Fin 2 → Nat) a + S128x3584.size a ≤ S128x3584.size a
  concatenates_S128x1_S128x1_S128x1_S128x1_S128x4_d1 : Shape.Concatenates [S128x1, S128x1, S128x1, S128x1] S128x4 1
  inb_S128x4_S128x4_0_0 : ∀ a, (![0, 0] : Fin 2 → Nat) a + S128x4.size a ≤ S128x4.size a
  h_S128x4 : 0 < S128x4.numel
  packedbf16_S128x4_S128x4_0_0 : (Rect.unit (s := S128x4) ![0, 0] S128x4.size inb_S128x4_S128x4_0_0).PackedRows (EltTy.packing .bf16)
  inb_S128x16_S128x1_0_0 : ∀ a, (![0, 0] : Fin 2 → Nat) a + S128x1.size a ≤ S128x16.size a
  h_S128x1 : 0 < S128x1.numel
  shapeCasts_S128x1_S128x1 : S128x1.ShapeCasts S128x1
  broadcasts_S128x1_S128x3584 : S128x1.Broadcasts S128x3584
  inb_S128x16_S128x1_0_4 : ∀ a, (![0, 4] : Fin 2 → Nat) a + S128x1.size a ≤ S128x16.size a
  inb_S128x16_S128x1_0_8 : ∀ a, (![0, 8] : Fin 2 → Nat) a + S128x1.size a ≤ S128x16.size a
  inb_S128x16_S128x1_0_12 : ∀ a, (![0, 12] : Fin 2 → Nat) a + S128x1.size a ≤ S128x16.size a
  packedbf16_S128x14336_S128x3584_0_0 : (Rect.unit (s := S128x14336) ![0, 0] S128x3584.size inb_S128x14336_S128x3584_0_0).PackedRows (EltTy.packing .bf16)
  inb_S128x16_S128x1_0_1 : ∀ a, (![0, 1] : Fin 2 → Nat) a + S128x1.size a ≤ S128x16.size a
  inb_S128x16_S128x1_0_5 : ∀ a, (![0, 5] : Fin 2 → Nat) a + S128x1.size a ≤ S128x16.size a
  inb_S128x16_S128x1_0_9 : ∀ a, (![0, 9] : Fin 2 → Nat) a + S128x1.size a ≤ S128x16.size a
  inb_S128x16_S128x1_0_13 : ∀ a, (![0, 13] : Fin 2 → Nat) a + S128x1.size a ≤ S128x16.size a
  packedbf16_S128x14336_S128x3584_0_3584 : (Rect.unit (s := S128x14336) ![0, 3584] S128x3584.size inb_S128x14336_S128x3584_0_3584).PackedRows (EltTy.packing .bf16)
  inb_S128x16_S128x1_0_2 : ∀ a, (![0, 2] : Fin 2 → Nat) a + S128x1.size a ≤ S128x16.size a
  inb_S128x16_S128x1_0_6 : ∀ a, (![0, 6] : Fin 2 → Nat) a + S128x1.size a ≤ S128x16.size a
  inb_S128x16_S128x1_0_10 : ∀ a, (![0, 10] : Fin 2 → Nat) a + S128x1.size a ≤ S128x16.size a
  inb_S128x16_S128x1_0_14 : ∀ a, (![0, 14] : Fin 2 → Nat) a + S128x1.size a ≤ S128x16.size a
  packedbf16_S128x14336_S128x3584_0_7168 : (Rect.unit (s := S128x14336) ![0, 7168] S128x3584.size inb_S128x14336_S128x3584_0_7168).PackedRows (EltTy.packing .bf16)
  inb_S128x16_S128x1_0_3 : ∀ a, (![0, 3] : Fin 2 → Nat) a + S128x1.size a ≤ S128x16.size a
  inb_S128x16_S128x1_0_7 : ∀ a, (![0, 7] : Fin 2 → Nat) a + S128x1.size a ≤ S128x16.size a
  inb_S128x16_S128x1_0_11 : ∀ a, (![0, 11] : Fin 2 → Nat) a + S128x1.size a ≤ S128x16.size a
  inb_S128x16_S128x1_0_15 : ∀ a, (![0, 15] : Fin 2 → Nat) a + S128x1.size a ≤ S128x16.size a
  packedbf16_S128x14336_S128x3584_0_10752 : (Rect.unit (s := S128x14336) ![0, 10752] S128x3584.size inb_S128x14336_S128x3584_0_10752).PackedRows (EltTy.packing .bf16)
  inb_S128x4_S128x1_0_0 : ∀ a, (![0, 0] : Fin 2 → Nat) a + S128x1.size a ≤ S128x4.size a
  inb_S128x4_S128x1_0_1 : ∀ a, (![0, 1] : Fin 2 → Nat) a + S128x1.size a ≤ S128x4.size a
  inb_S128x4_S128x1_0_2 : ∀ a, (![0, 2] : Fin 2 → Nat) a + S128x1.size a ≤ S128x4.size a
  inb_S128x4_S128x1_0_3 : ∀ a, (![0, 3] : Fin 2 → Nat) a + S128x1.size a ≤ S128x4.size a
  packedbf16_S128x3584_S128x3584_0_0 : (Rect.unit (s := S128x3584) ![0, 0] S128x3584.size inb_S128x3584_S128x3584_0_0).PackedRows (EltTy.packing .bf16)
  shapeCasts_S4096x16_S2048x2x4x4 : S4096x16.ShapeCasts S2048x2x4x4
  shapeCasts_S4096x4_S2048x2x4x1 : S4096x4.ShapeCasts S2048x2x4x1
  shapeCasts_S4096x14336_S2048x2x14336 : S4096x14336.ShapeCasts S2048x2x14336
  shapeCasts_S4096x3584_S2048x2x3584 : S4096x3584.ShapeCasts S2048x2x3584
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16.size a ≤ S4096x16.size a
  hwx0_0 : ∀ i : grid0.Coords, EltTy.bits .bf16 = 32 ∨ (Rect.block (s := S4096x16) S128x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S4096x4.size a
  hwx0_1 : ∀ i : grid0.Coords, EltTy.bits .bf16 = 32 ∨ (Rect.block (s := S4096x4) S128x4.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x14336.size a ≤ S4096x14336.size a
  hwx0_2 : ∀ i : grid0.Coords, EltTy.bits .bf16 = 32 ∨ (Rect.block (s := S4096x14336) S128x14336.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x3584.size a ≤ S4096x3584.size a
  hwx0_3 : ∀ i : grid0.Coords, EltTy.bits .bf16 = 32 ∨ (Rect.block (s := S4096x3584) S128x3584.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x14336.size a ≤ S4096x14336.size a
  hwx0_4 : ∀ i : grid0.Coords, EltTy.bits .bf16 = 32 ∨ (Rect.block (s := S4096x14336) S128x14336.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x16.size a ≤ S4096x16.size a
  hwx0_5 : ∀ i : grid0.Coords, EltTy.bits .bf16 = 32 ∨ (Rect.block (s := S4096x16) S128x16.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4.size a ≤ S4096x4.size a
  hwx0_6 : ∀ i : grid0.Coords, EltTy.bits .bf16 = 32 ∨ (Rect.block (s := S4096x4) S128x4.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x14336.size a ≤ S4096x14336.size a
  hwx0_7 : ∀ i : grid0.Coords, EltTy.bits .bf16 = 32 ∨ (Rect.block (s := S4096x14336) S128x14336.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x3584.size a ≤ S4096x3584.size a
  hwx0_8 : ∀ i : grid0.Coords, EltTy.bits .bf16 = 32 ∨ (Rect.block (s := S4096x3584) S128x3584.size (cc0_transform_8 i) (hinb0_8 i)).WholeWords (EltTy.packing .bf16)

variable [Facts₀]

abbrev win0_0 : Pipeline.Window sig grid0 :=
  Pipeline.Window.ofSpec (Memref.whole main_v0) S128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x14336.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x3584.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x14336.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S128x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S128x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S128x14336.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_3) S128x3584.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2048x2x4x4 : Shape := ⟨4, ![2048, 2, 4, 4]⟩
abbrev S2048x2x4x1 : Shape := ⟨4, ![2048, 2, 4, 1]⟩
abbrev S2048x2x14336 : Shape := ⟨3, ![2048, 2, 14336]⟩
abbrev S2048x2x3584 : Shape := ⟨3, ![2048, 2, 3584]⟩
abbrev S2048x2x4x3584 : Shape := ⟨4, ![2048, 2, 4, 3584]⟩
abbrev S2048x2x1x3584 : Shape := ⟨4, ![2048, 2, 1, 3584]⟩
abbrev S_ : Shape := ⟨0, ![]⟩
abbrev S2048x2x4 : Shape := ⟨3, ![2048, 2, 4]⟩

abbrev nBuf : Space → Nat
  | .hbm => 29
  | .vmem => 0
  | .smem => 0
  | _ => 0

abbrev bufTy : (tb : Table) → Fin (tcTables nBuf tb) → BufTy
  | .hbm, ⟨0, _⟩ => ⟨S2048x2x4x4, .bf16⟩
  | .hbm, ⟨1, _⟩ => ⟨S2048x2x4x1, .bf16⟩
  | .hbm, ⟨2, _⟩ => ⟨S2048x2x14336, .bf16⟩
  | .hbm, ⟨3, _⟩ => ⟨S2048x2x3584, .bf16⟩
  | .hbm, ⟨4, _⟩ => ⟨S2048x2x14336, .bf16⟩
  | .hbm, ⟨5, _⟩ => ⟨S2048x2x14336, .f32⟩
  | .hbm, ⟨6, _⟩ => ⟨S2048x2x4x3584, .f32⟩
  | .hbm, ⟨7, _⟩ => ⟨S2048x2x3584, .f32⟩
  | .hbm, ⟨8, _⟩ => ⟨S2048x2x1x3584, .f32⟩
  | .hbm, ⟨9, _⟩ => ⟨S2048x2x14336, .f32⟩
  | .hbm, ⟨10, _⟩ => ⟨S2048x2x4x3584, .f32⟩
  | .hbm, ⟨11, _⟩ => ⟨S2048x2x4x4, .f32⟩
  | .hbm, ⟨12, _⟩ => ⟨S2048x2x4x1, .f32⟩
  | .hbm, ⟨13, _⟩ => ⟨S2048x2x4x4, .f32⟩
  | .hbm, ⟨14, _⟩ => ⟨S2048x2x4x3584, .f32⟩
  | .hbm, ⟨15, _⟩ => ⟨S2048x2x4x3584, .f32⟩
  | .hbm, ⟨16, _⟩ => ⟨S2048x2x4x3584, .f32⟩
  | .hbm, ⟨17, _⟩ => ⟨S_, .f32⟩
  | .hbm, ⟨18, _⟩ => ⟨S2048x2x4, .f32⟩
  | .hbm, ⟨19, _⟩ => ⟨S2048x2x4x1, .f32⟩
  | .hbm, ⟨20, _⟩ => ⟨S2048x2x4x3584, .f32⟩
  | .hbm, ⟨21, _⟩ => ⟨S2048x2x4x3584, .f32⟩
  | .hbm, ⟨22, _⟩ => ⟨S_, .f32⟩
  | .hbm, ⟨23, _⟩ => ⟨S2048x2x3584, .f32⟩
  | .hbm, ⟨24, _⟩ => ⟨S2048x2x4x4, .bf16⟩
  | .hbm, ⟨25, _⟩ => ⟨S2048x2x4x1, .bf16⟩
  | .hbm, ⟨26, _⟩ => ⟨S2048x2x14336, .f32⟩
  | .hbm, ⟨27, _⟩ => ⟨S2048x2x14336, .bf16⟩
  | .hbm, ⟨28, _⟩ => ⟨S2048x2x3584, .bf16⟩
  | _, _ => ⟨S2048x2x4x4, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bitsLt_bf16_f32 : FTy.bits .bf16 < FTy.bits .f32
  shapeCasts_S2048x2x14336_S2048x2x4x3584 : S2048x2x14336.ShapeCasts S2048x2x4x3584
  shapeCasts_S2048x2x3584_S2048x2x1x3584 : S2048x2x3584.ShapeCasts S2048x2x1x3584
  bcast_S2048x2x1x3584_S2048x2x4x3584_0_1_2_3 : S2048x2x1x3584.BroadcastsInDim S2048x2x4x3584 (![0, 1, 2, 3] : Fin 4 → Fin S2048x2x4x3584.rank)
  reducesTo_S2048x2x4x3584_S2048x2x4_d3 : S2048x2x4x3584.ReducesTo [3] S2048x2x4
  h_S_ : 0 < S_.numel
  bcast_S2048x2x4_S2048x2x4x1_0_1_2 : S2048x2x4.BroadcastsInDim S2048x2x4x1 (![0, 1, 2] : Fin 3 → Fin S2048x2x4x1.rank)
  bcast_S2048x2x4x1_S2048x2x4x3584_0_1_2_3 : S2048x2x4x1.BroadcastsInDim S2048x2x4x3584 (![0, 1, 2, 3] : Fin 4 → Fin S2048x2x4x3584.rank)
  reducesTo_S2048x2x4x3584_S2048x2x3584_d2 : S2048x2x4x3584.ReducesTo [2] S2048x2x3584
  shapeCasts_S2048x2x4x3584_S2048x2x14336 : S2048x2x4x3584.ShapeCasts S2048x2x14336
  dot_S2048x2x4x3584_S2048x2x4x3584_S2048x2x4x4_3_3_2_2_01_01_wf : DotDims.WF S2048x2x4x3584 S2048x2x4x3584 S2048x2x4x4 [3] [3] [2] [2] [0, 1] [0, 1]
  dot_S2048x2x4x4_S2048x2x4x3584_S2048x2x4x3584_2_2_3_3_01_01_wf : DotDims.WF S2048x2x4x4 S2048x2x4x3584 S2048x2x4x3584 [2] [2] [3] [3] [0, 1] [0, 1]

variable [Facts₀]

def dot_S2048x2x4x3584_S2048x2x4x3584_S2048x2x4x4_3_3_2_2_01_01 : DotDims S2048x2x4x3584 S2048x2x4x3584 S2048x2x4x4 where
  lhsContracting := [3]
  rhsContracting := [3]
  lhsNonContracting := [2]
  rhsNonContracting := [2]
  lhsBatch := [0, 1]
  rhsBatch := [0, 1]
  wf := dot_S2048x2x4x3584_S2048x2x4x3584_S2048x2x4x4_3_3_2_2_01_01_wf
def dot_S2048x2x4x4_S2048x2x4x3584_S2048x2x4x3584_2_2_3_3_01_01 : DotDims S2048x2x4x4 S2048x2x4x3584 S2048x2x4x3584 where
  lhsContracting := [2]
  rhsContracting := [2]
  lhsNonContracting := [3]
  rhsNonContracting := [3]
  lhsBatch := [0, 1]
  rhsBatch := [0, 1]
  wf := dot_S2048x2x4x4_S2048x2x4x3584_S2048x2x4x3584_2_2_3_3_01_01_wf

class Facts : Prop extends Facts₀ where

variable [Facts]
-- ==== Proof.Spec.lean ====
/-
  The four gradients, as mathematics over the extended reals.

  A row of the flattened arrays carries four "streams" of width 3584 side by side (stream `r` occupies lanes
  `r * 3584 … r * 3584 + 3583`), a 4×4 mixing matrix laid out row-major as sixteen entries (entry `(r, q)` at
  `r * 4 + q`), and a 4-vector of output weights. With `g` the incoming gradient of the mixed streams, `x` the
  original streams and `s` the sublayer's output, every row (one sequence position of one batch element) has

    d h_res (r, q)   = ∑ₕ g(r, h) · x(q, h)
    d h_post (r)     = ∑ₕ g(r, h) · s(h)
    d x (q, h)       = ∑ᵣ h_res(r, q) · g(r, h)
    d s (h)          = ∑ᵣ h_post(r) · g(r, h)

  Each is stated twice: row by row over matrices with any number of rows (the form in which a block of rows and the
  whole flattened array are the same function), and over the arrays' own four- and three-axis shapes.
-/
import Idealize.ShloMosaic.Lib.ValueIdx
import Idealize.ShloMosaic.PureOps.Ideal

noncomputable section

namespace Cert.MixGrad

open Idealize.ShloMosaic Idealize.ShloMosaic.ValueIdx

/-- A matrix of extended reals with `n` rows and `c` columns. -/
abbrev Mat (n c : Nat) : Type := (⟨2, ![n, c]⟩ : Shape).Idx → EReal

/-- Lane `h` of stream `r` in a row of four streams of width 3584. -/
abbrev lane (r : Fin 4) (h : Fin 3584) : Fin 14336 :=
  ⟨r.val * 3584 + h.val, by have := r.isLt; have := h.isLt; omega⟩

/-- Entry `(r, q)` of a 4×4 matrix laid out row-major in a row of sixteen. -/
abbrev cell (r q : Fin 4) : Fin 16 :=
  ⟨r.val * 4 + q.val, by have := r.isLt; have := q.isLt; omega⟩

/-! ## Row by row -/

/-- In row `p`: the inner product over the hidden axis of stream `r` of `G` with stream `q` of `X`. -/
def dotStreams {n : Nat} (X G : Mat n 14336) (p : Fin n) (r q : Fin 4) : EReal :=
  ∑ h : Fin 3584, G (ix2 p (lane r h)) * X (ix2 p (lane q h))

/-- In row `p`: the inner product over the hidden axis of stream `r` of `G` with the single stream `S`. -/
def dotSingle {n : Nat} (S : Mat n 3584) (G : Mat n 14336) (p : Fin n) (r : Fin 4) : EReal :=
  ∑ h : Fin 3584, G (ix2 p (lane r h)) * S (ix2 p h)

/-- In row `p`, at lane `h`: the streams of `G` mixed by column `q` of the row's 4×4 matrix `C`. -/
def mixColumn {n : Nat} (C : Mat n 16) (G : Mat n 14336) (p : Fin n) (q : Fin 4) (h : Fin 3584) : EReal :=
  ∑ r : Fin 4, C (ix2 p (cell r q)) * G (ix2 p (lane r h))

/-- In row `p`, at lane `h`: the streams of `G` weighted by the row's 4-vector `C` and added. -/
def mixVector {n : Nat} (C : Mat n 4) (G : Mat n 14336) (p : Fin n) (h : Fin 3584) : EReal :=
  ∑ r : Fin 4, C (ix2 p r) * G (ix2 p (lane r h))

/-- The sixteen inner products of every row, entry `(r, q)` at column `r * 4 + q`. -/
def hresRows {n : Nat} (X G : Mat n 14336) : Mat n 16 := fun j =>
  dotStreams X G (j 0 : Fin n)
    ⟨(j 1 : Fin 16).val / 4, by have h : (j 1 : Fin 16).val < 16 := (j 1 : Fin 16).isLt; omega⟩
    ⟨(j 1 : Fin 16).val % 4, Nat.mod_lt _ (by decide)⟩

/-- The four inner products with the single stream of every row. -/
def hpostRows {n : Nat} (S : Mat n 3584) (G : Mat n 14336) : Mat n 4 := fun j =>
  dotSingle S G (j 0 : Fin n) (j 1 : Fin 4)

/-- Every row's four mixed streams, stream `q` in lanes `q * 3584 …`. -/
def xgradRows {n : Nat} (C : Mat n 16) (G : Mat n 14336) : Mat n 14336 := fun j =>
  mixColumn C G (j 0 : Fin n)
    ⟨(j 1 : Fin 14336).val / 3584, by have h : (j 1 : Fin 14336).val < 14336 := (j 1 : Fin 14336).isLt; omega⟩
    ⟨(j 1 : Fin 14336).val % 3584, Nat.mod_lt _ (by decide)⟩

/-- Every row's weighted sum of streams. -/
def subgradRows {n : Nat} (C : Mat n 4) (G : Mat n 14336) : Mat n 3584 := fun j =>
  mixVector C G (j 0 : Fin n) (j 1 : Fin 3584)

theorem hresRows_apply {n : Nat} (X G : Mat n 14336) (p : Fin n) (r q : Fin 4) :
    hresRows X G (ix2 p (cell r q)) = dotStreams X G p r q := by
  have hr : r.val < 4 := r.isLt
  have hq : q.val < 4 := q.isLt
  have e1 : (⟨(r.val * 4 + q.val) / 4, by omega⟩ : Fin 4) = r :=
    Fin.ext (by show (r.val * 4 + q.val) / 4 = r.val; omega)
  have e2 : (⟨(r.val * 4 + q.val) % 4, Nat.mod_lt _ (by decide)⟩ : Fin 4) = q :=
    Fin.ext (by show (r.val * 4 + q.val) % 4 = q.val; omega)
  show dotStreams X G p ⟨(r.val * 4 + q.val) / 4, _⟩ ⟨(r.val * 4 + q.val) % 4, _⟩ = _
  rw [e1, e2]

theorem hpostRows_apply {n : Nat} (S : Mat n 3584) (G : Mat n 14336) (p : Fin n) (r : Fin 4) :
    hpostRows S G (ix2 p r) = dotSingle S G p r := rfl

theorem xgradRows_apply {n : Nat} (C : Mat n 16) (G : Mat n 14336) (p : Fin n) (q : Fin 4) (h : Fin 3584) :
    xgradRows C G (ix2 p (lane q h)) = mixColumn C G p q h := by
  have hq : q.val < 4 := q.isLt
  have hh : h.val < 3584 := h.isLt
  have e1 : (⟨(q.val * 3584 + h.val) / 3584, by omega⟩ : Fin 4) = q :=
    Fin.ext (by show (q.val * 3584 + h.val) / 3584 = q.val; omega)
  have e2 : (⟨(q.val * 3584 + h.val) % 3584, Nat.mod_lt _ (by decide)⟩ : Fin 3584) = h :=
    Fin.ext (by show (q.val * 3584 + h.val) % 3584 = h.val; omega)
  show mixColumn C G p ⟨(q.val * 3584 + h.val) / 3584, _⟩ ⟨(q.val * 3584 + h.val) % 3584, _⟩ = _
  rw [e1, e2]

theorem subgradRows_apply {n : Nat} (C : Mat n 4) (G : Mat n 14336) (p : Fin n) (h : Fin 3584) :
    subgradRows C G (ix2 p h) = mixVector C G p h := rfl

/-! ## Over the arrays' own shapes: axes (sequence, batch, …) -/

/-- Streams and their gradient: (sequence, batch, 4 · 3584). -/
abbrev Streams : Type := (⟨3, ![2048, 2, 14336]⟩ : Shape).Idx → EReal
/-- The sublayer's output and its gradient: (sequence, batch, 3584). -/
abbrev Single : Type := (⟨3, ![2048, 2, 3584]⟩ : Shape).Idx → EReal
/-- The mixing matrices and their gradient: (sequence, batch, 4, 4). -/
abbrev Mixes : Type := (⟨4, ![2048, 2, 4, 4]⟩ : Shape).Idx → EReal
/-- The output weights and their gradient: (sequence, batch, 4, 1). -/
abbrev Weights : Type := (⟨4, ![2048, 2, 4, 1]⟩ : Shape).Idx → EReal

/-- d h_res (s, b, r, q) = ∑ₕ g(s, b, r, h) · x(s, b, q, h). -/
def gradHRes (x g : Streams) : Mixes := fun i =>
  ∑ h : Fin 3584, g (ix3 (i 0 : Fin 2048) (i 1 : Fin 2) (lane (i 2 : Fin 4) h))
    * x (ix3 (i 0 : Fin 2048) (i 1 : Fin 2) (lane (i 3 : Fin 4) h))

/-- d h_post (s, b, r, 0) = ∑ₕ g(s, b, r, h) · sub(s, b, h). -/
def gradHPost (sub : Single) (g : Streams) : Weights := fun i =>
  ∑ h : Fin 3584, g (ix3 (i 0 : Fin 2048) (i 1 : Fin 2) (lane (i 2 : Fin 4) h))
    * sub (ix3 (i 0 : Fin 2048) (i 1 : Fin 2) h)

/-- d x (s, b, q · 3584 + h) = ∑ᵣ h_res(s, b, r, q) · g(s, b, r, h). -/
def gradX (hres : Mixes) (g : Streams) : Streams := fun i =>
  ∑ r : Fin 4, hres (ix4 (i 0 : Fin 2048) (i 1 : Fin 2) r
      (⟨(i 2 : Fin 14336).val / 3584, by have h : (i 2 : Fin 14336).val < 14336 := (i 2 : Fin 14336).isLt; omega⟩ : Fin 4))
    * g (ix3 (i 0 : Fin 2048) (i 1 : Fin 2)
      (lane r ⟨(i 2 : Fin 14336).val % 3584, Nat.mod_lt _ (by decide)⟩))

/-- d sub (s, b, h) = ∑ᵣ h_post(s, b, r, 0) · g(s, b, r, h). -/
def gradSub (hpost : Weights) (g : Streams) : Single := fun i =>
  ∑ r : Fin 4, hpost (ix4 (i 0 : Fin 2048) (i 1 : Fin 2) r (0 : Fin 1))
    * g (ix3 (i 0 : Fin 2048) (i 1 : Fin 2) (lane r (i 2 : Fin 3584)))

end Cert.MixGrad

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.BlockHRes.lean ====
/-
  What the kernel body leaves in the block of the d h_res output, as the specification's row function: every row's sixteen
  inner products, over the hidden axis, of a stream of the incoming gradient with a stream of the original streams,
  entry (r, q) at column r * 4 + q.
-/
import proofs.«103172_j56564719288437_2_alg».proof.Proof.Gen.KernelIdeal.Frame
import proofs.«103172_j56564719288437_2_alg».proof.Proof.Spec
import proofs.«103172_j56564719288437_2_alg».proof.Proof.LibKeepdims
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.ValueIdx

/-- The zero offsets of a whole-block rectangle, however spelt. -/
private theorem zeros2 : (![0, 0] : Fin 2 → Nat) = fun _ => 0 := funext fun a => by fin_cases a <;> rfl

/-- An add-reduction over the lane axis of a [128, 3584] block, read at row `p`: the sum over the row's lanes. -/
private theorem rowSum_apply (v : FVec Ideal S128x3584 .f32) (p : Fin 128) :
    multiReduction (F := Ideal) .add [1] S128 v 0x00000000#32 reduces_S128x3584_S128 (.inl rfl) rfl (ix1 p)
      = ∑ h : Fin 3584, v (ix2 p h) := by
  refine (Ideal.multiReduction_add_single v _ reduces_S128x3584_S128 (.inl rfl) rfl (ix1 p)).trans ?_
  refine Finset.sum_congr rfl fun k _ => ?_
  exact congrArg v (funext fun a => Fin.ext (by match a with | ⟨0, _⟩ => rfl | ⟨1, _⟩ => rfl))

/-- The column of row-wise inner products of two [128, 3584] blocks, read at row `p`. -/
private theorem column_apply (a b : FVec Ideal S128x3584 .f32) (p : Fin 128) (u : Fin 1) :
    shapeCast S128x1 (multiReduction (F := Ideal) .add [1] S128 (mulf a b) 0x00000000#32 reduces_S128x3584_S128 (.inl rfl) rfl)
        shapeCasts_S128_S128x1 (ix2 p u)
      = ∑ h : Fin 3584, a (ix2 p h) * b (ix2 p h) :=
  (Cert.LibKeepdims.shapeCast_a_a1_apply _ shapeCasts_S128_S128x1 p u).trans (rowSum_apply (mulf a b) p)

/-- A bf16 block widened to f32 is, at the ideal values, the block itself. -/
private theorem widen_apply (v : Vec Ideal S128x3584 .bf16) (j : S128x3584.Idx) :
    extf (F := Ideal) .f32 (shapeCast S128x3584 v shapeCasts_S128x3584_S128x3584) bitsLt_bf16_f32 j = v j :=
  congrFun (shapeCast_self v shapeCasts_S128x3584_S128x3584) j

/-- Stream 0 of a row of four streams: lanes 0 … 3583. -/
private theorem ld_stream0 (x : Vec Ideal S128x14336 .bf16) (p : Fin 128) (h : Fin 3584) :
    View.ld x r0_0 (ix2 p h) = x (ix2 p (Cert.MixGrad.lane 0 h)) :=
  congrArg x (funext fun a => Fin.ext (by
    match a with
    | ⟨0, _⟩ => show 0 + 1 * p.val = p.val; omega
    | ⟨1, _⟩ => show 0 + 1 * h.val = 0 * 3584 + h.val; omega))

/-- Stream 1: lanes 3584 … 7167. -/
private theorem ld_stream1 (x : Vec Ideal S128x14336 .bf16) (p : Fin 128) (h : Fin 3584) :
    View.ld x r0_1 (ix2 p h) = x (ix2 p (Cert.MixGrad.lane 1 h)) :=
  congrArg x (funext fun a => Fin.ext (by
    match a with
    | ⟨0, _⟩ => show 0 + 1 * p.val = p.val; omega
    | ⟨1, _⟩ => show 3584 + 1 * h.val = 1 * 3584 + h.val; omega))

/-- Stream 2: lanes 7168 … 10751. -/
private theorem ld_stream2 (x : Vec Ideal S128x14336 .bf16) (p : Fin 128) (h : Fin 3584) :
    View.ld x r0_2 (ix2 p h) = x (ix2 p (Cert.MixGrad.lane 2 h)) :=
  congrArg x (funext fun a => Fin.ext (by
    match a with
    | ⟨0, _⟩ => show 0 + 1 * p.val = p.val; omega
    | ⟨1, _⟩ => show 7168 + 1 * h.val = 2 * 3584 + h.val; omega))

/-- Stream 3: lanes 10752 … 14335. -/
private theorem ld_stream3 (x : Vec Ideal S128x14336 .bf16) (p : Fin 128) (h : Fin 3584) :
    View.ld x r0_3 (ix2 p h) = x (ix2 p (Cert.MixGrad.lane 3 h)) :=
  congrArg x (funext fun a => Fin.ext (by
    match a with
    | ⟨0, _⟩ => show 0 + 1 * p.val = p.val; omega
    | ⟨1, _⟩ => show 10752 + 1 * h.val = 3 * 3584 + h.val; omega))

/-- A bf16 block of stream `k` of a row of four streams, widened to f32, read at `(p, h)`. -/
private theorem widen_stream0 (x : Vec Ideal S128x14336 .bf16) (p : Fin 128) (h : Fin 3584) :
    extf (F := Ideal) .f32 (shapeCast S128x3584 (View.ld x r0_0) shapeCasts_S128x3584_S128x3584) bitsLt_bf16_f32 (ix2 p h)
      = x (ix2 p (Cert.MixGrad.lane ⟨0, by decide⟩ h)) :=
  (widen_apply _ _).trans (ld_stream0 x p h)

private theorem widen_stream1 (x : Vec Ideal S128x14336 .bf16) (p : Fin 128) (h : Fin 3584) :
    extf (F := Ideal) .f32 (shapeCast S128x3584 (View.ld x r0_1) shapeCasts_S128x3584_S128x3584) bitsLt_bf16_f32 (ix2 p h)
      = x (ix2 p (Cert.MixGrad.lane ⟨1, by decide⟩ h)) :=
  (widen_apply _ _).trans (ld_stream1 x p h)

private theorem widen_stream2 (x : Vec Ideal S128x14336 .bf16) (p : Fin 128) (h : Fin 3584) :
    extf (F := Ideal) .f32 (shapeCast S128x3584 (View.ld x r0_2) shapeCasts_S128x3584_S128x3584) bitsLt_bf16_f32 (ix2 p h)
      = x (ix2 p (Cert.MixGrad.lane ⟨2, by decide⟩ h)) :=
  (widen_apply _ _).trans (ld_stream2 x p h)

private theorem widen_stream3 (x : Vec Ideal S128x14336 .bf16) (p : Fin 128) (h : Fin 3584) :
    extf (F := Ideal) .f32 (shapeCast S128x3584 (View.ld x r0_3) shapeCasts_S128x3584_S128x3584) bitsLt_bf16_f32 (ix2 p h)
      = x (ix2 p (Cert.MixGrad.lane ⟨3, by decide⟩ h)) :=
  (widen_apply _ _).trans (ld_stream3 x p h)

/-- Columns `[128, 1]` laid side by side along axis 1, read at `(p, c)`: the `c`-th column's entry of row `p`. -/
private theorem concat_col {α : Type} {N : Nat} (xs : List ((s : Shape) × (s.Idx → α)))
    (h : Shape.Concatenates (xs.map (·.1)) ⟨2, ![128, N]⟩ 1) (p : Fin 128) (c : Fin N) (hk : c.val < xs.length)
    (x₁ : S128x1.Idx → α) (hxk : xs[c.val] = ⟨S128x1, x₁⟩)
    (hpre : (((xs.take c.val).map (·.1)).map fun s =>
      if h : s.rank = 2 then s.size ((1 : Fin 2).cast h.symm) else 0).sum = c.val) :
    concatenate ⟨2, ![128, N]⟩ 1 xs h (ix2 p c) = x₁ (ix2 p (0 : Fin 1)) :=
  concatenate_apply_piece (t := ⟨2, ![128, N]⟩) (1 : Fin 2) xs h (ix2 p c) c.val hk S128x1 x₁ hxk rfl c.val hpre
    (ix2 p (0 : Fin 1)) (fun b => match b with
      | ⟨0, _⟩ => fun _ => rfl
      | ⟨1, _⟩ => fun hne => absurd rfl hne) rfl

/-! The stored [128, 16] block, column by column. Column `r * 4 + q` is the row-wise inner product of stream `r` of the
    gradient with stream `q` of the original streams: for `q = 0` and (but for `r = 3`) `q = 1` a column computed earlier,
    for `(r, q) = (3, 1)` the row sums of a product computed earlier, for `q = 2, 3` computed from the widened blocks. -/

private theorem pay16_col0 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨0, by decide⟩ : Fin 16))
      = v17 (ix2 p (0 : Fin 1)) := by
  unfold k0_pay16
  rw [truncf_apply]
  exact concat_col _ _ p ⟨0, by decide⟩ (by show (0 : Nat) < 16; decide) _ rfl rfl

private theorem pay16_col1 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨1, by decide⟩ : Fin 16))
      = v32 (ix2 p (0 : Fin 1)) := by
  unfold k0_pay16
  rw [truncf_apply]
  exact concat_col _ _ p ⟨1, by decide⟩ (by show (1 : Nat) < 16; decide) _ rfl rfl

private theorem pay16_col2 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨2, by decide⟩ : Fin 16))
      = ∑ h : Fin 3584, v2 (ix2 p h) * extf (F := Ideal) .f32 (shapeCast S128x3584 v42 shapeCasts_S128x3584_S128x3584) bitsLt_bf16_f32 (ix2 p h) := by
  unfold k0_pay16
  rw [truncf_apply]
  exact (concat_col _ _ p ⟨2, by decide⟩ (by show (2 : Nat) < 16; decide) _ rfl rfl).trans (column_apply v2 _ p 0)

private theorem pay16_col3 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨3, by decide⟩ : Fin 16))
      = ∑ h : Fin 3584, v2 (ix2 p h) * extf (F := Ideal) .f32 (shapeCast S128x3584 v57 shapeCasts_S128x3584_S128x3584) bitsLt_bf16_f32 (ix2 p h) := by
  unfold k0_pay16
  rw [truncf_apply]
  exact (concat_col _ _ p ⟨3, by decide⟩ (by show (3 : Nat) < 16; decide) _ rfl rfl).trans (column_apply v2 _ p 0)

private theorem pay16_col4 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨4, by decide⟩ : Fin 16))
      = v20 (ix2 p (0 : Fin 1)) := by
  unfold k0_pay16
  rw [truncf_apply]
  exact concat_col _ _ p ⟨4, by decide⟩ (by show (4 : Nat) < 16; decide) _ rfl rfl

private theorem pay16_col5 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨5, by decide⟩ : Fin 16))
      = v35 (ix2 p (0 : Fin 1)) := by
  unfold k0_pay16
  rw [truncf_apply]
  exact concat_col _ _ p ⟨5, by decide⟩ (by show (5 : Nat) < 16; decide) _ rfl rfl

private theorem pay16_col6 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨6, by decide⟩ : Fin 16))
      = ∑ h : Fin 3584, v5 (ix2 p h) * extf (F := Ideal) .f32 (shapeCast S128x3584 v42 shapeCasts_S128x3584_S128x3584) bitsLt_bf16_f32 (ix2 p h) := by
  unfold k0_pay16
  rw [truncf_apply]
  exact (concat_col _ _ p ⟨6, by decide⟩ (by show (6 : Nat) < 16; decide) _ rfl rfl).trans (column_apply v5 _ p 0)

private theorem pay16_col7 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨7, by decide⟩ : Fin 16))
      = ∑ h : Fin 3584, v5 (ix2 p h) * extf (F := Ideal) .f32 (shapeCast S128x3584 v57 shapeCasts_S128x3584_S128x3584) bitsLt_bf16_f32 (ix2 p h) := by
  unfold k0_pay16
  rw [truncf_apply]
  exact (concat_col _ _ p ⟨7, by decide⟩ (by show (7 : Nat) < 16; decide) _ rfl rfl).trans (column_apply v5 _ p 0)

private theorem pay16_col8 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨8, by decide⟩ : Fin 16))
      = v23 (ix2 p (0 : Fin 1)) := by
  unfold k0_pay16
  rw [truncf_apply]
  exact concat_col _ _ p ⟨8, by decide⟩ (by show (8 : Nat) < 16; decide) _ rfl rfl

private theorem pay16_col9 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨9, by decide⟩ : Fin 16))
      = v38 (ix2 p (0 : Fin 1)) := by
  unfold k0_pay16
  rw [truncf_apply]
  exact concat_col _ _ p ⟨9, by decide⟩ (by show (9 : Nat) < 16; decide) _ rfl rfl

private theorem pay16_col10 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨10, by decide⟩ : Fin 16))
      = ∑ h : Fin 3584, v8 (ix2 p h) * extf (F := Ideal) .f32 (shapeCast S128x3584 v42 shapeCasts_S128x3584_S128x3584) bitsLt_bf16_f32 (ix2 p h) := by
  unfold k0_pay16
  rw [truncf_apply]
  exact (concat_col _ _ p ⟨10, by decide⟩ (by show (10 : Nat) < 16; decide) _ rfl rfl).trans (column_apply v8 _ p 0)

private theorem pay16_col11 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨11, by decide⟩ : Fin 16))
      = ∑ h : Fin 3584, v8 (ix2 p h) * extf (F := Ideal) .f32 (shapeCast S128x3584 v57 shapeCasts_S128x3584_S128x3584) bitsLt_bf16_f32 (ix2 p h) := by
  unfold k0_pay16
  rw [truncf_apply]
  exact (concat_col _ _ p ⟨11, by decide⟩ (by show (11 : Nat) < 16; decide) _ rfl rfl).trans (column_apply v8 _ p 0)

set_option maxHeartbeats 1000000 in
private theorem pay16_col12 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨12, by decide⟩ : Fin 16))
      = v26 (ix2 p (0 : Fin 1)) := by
  unfold k0_pay16
  rw [truncf_apply]
  exact concat_col _ _ p ⟨12, by decide⟩ (by show (12 : Nat) < 16; decide) _ rfl rfl

set_option maxHeartbeats 1000000 in
private theorem pay16_col13 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨13, by decide⟩ : Fin 16))
      = ∑ h : Fin 3584, v39 (ix2 p h) := by
  unfold k0_pay16
  rw [truncf_apply]
  exact (concat_col _ _ p ⟨13, by decide⟩ (by show (13 : Nat) < 16; decide) _ rfl rfl).trans
    ((Cert.LibKeepdims.shapeCast_a_a1_apply _ shapeCasts_S128_S128x1 p 0).trans (rowSum_apply v39 p))

set_option maxHeartbeats 1000000 in
private theorem pay16_col14 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨14, by decide⟩ : Fin 16))
      = ∑ h : Fin 3584, v11 (ix2 p h) * extf (F := Ideal) .f32 (shapeCast S128x3584 v42 shapeCasts_S128x3584_S128x3584) bitsLt_bf16_f32 (ix2 p h) := by
  unfold k0_pay16
  rw [truncf_apply]
  exact (concat_col _ _ p ⟨14, by decide⟩ (by show (14 : Nat) < 16; decide) _ rfl rfl).trans (column_apply v11 _ p 0)

set_option maxHeartbeats 1000000 in
private theorem pay16_col15 (v2 v5 v8 v11 : FVec Ideal S128x3584 .f32) (v17 v20 v23 v26 v32 v35 v38 : FVec Ideal S128x1 .f32)
    (v39 : FVec Ideal S128x3584 .f32) (v42 v57 : Vec Ideal S128x3584 .bf16) (p : Fin 128) :
    k0_pay16 (F := Ideal) v2 v5 v8 v11 v17 v20 v23 v26 v32 v35 v38 v39 v42 v57 (ix2 p (⟨15, by decide⟩ : Fin 16))
      = ∑ h : Fin 3584, v11 (ix2 p h) * extf (F := Ideal) .f32 (shapeCast S128x3584 v57 shapeCasts_S128x3584_S128x3584) bitsLt_bf16_f32 (ix2 p h) := by
  unfold k0_pay16
  rw [truncf_apply]
  exact (concat_col _ _ p ⟨15, by decide⟩ (by show (15 : Nat) < 16; decide) _ rfl rfl).trans (column_apply v11 _ p 0)

/-! The columns computed earlier: row-wise inner products of two widened blocks. -/

private theorem pay7_apply (g x : Vec Ideal S128x3584 .bf16) (p : Fin 128) (u : Fin 1) :
    k0_pay7 (F := Ideal) g x (ix2 p u)
      = ∑ h : Fin 3584, k0_pay2 (F := Ideal) g (ix2 p h) * k0_pay6 (F := Ideal) x (ix2 p h) := by
  unfold k0_pay7
  exact column_apply _ _ p u

private theorem pay8_apply (g x : Vec Ideal S128x3584 .bf16) (p : Fin 128) (u : Fin 1) :
    k0_pay8 (F := Ideal) g x (ix2 p u)
      = ∑ h : Fin 3584, k0_pay3 (F := Ideal) g (ix2 p h) * k0_pay6 (F := Ideal) x (ix2 p h) := by
  unfold k0_pay8
  exact column_apply _ _ p u

private theorem pay9_apply (g x : Vec Ideal S128x3584 .bf16) (p : Fin 128) (u : Fin 1) :
    k0_pay9 (F := Ideal) g x (ix2 p u)
      = ∑ h : Fin 3584, k0_pay4 (F := Ideal) g (ix2 p h) * k0_pay6 (F := Ideal) x (ix2 p h) := by
  unfold k0_pay9
  exact column_apply _ _ p u

private theorem pay10_apply (g x : Vec Ideal S128x3584 .bf16) (p : Fin 128) (u : Fin 1) :
    k0_pay10 (F := Ideal) g x (ix2 p u)
      = ∑ h : Fin 3584, k0_pay5 (F := Ideal) g (ix2 p h) * k0_pay6 (F := Ideal) x (ix2 p h) := by
  unfold k0_pay10
  exact column_apply _ _ p u

private theorem pay12_apply (g x : Vec Ideal S128x3584 .bf16) (p : Fin 128) (u : Fin 1) :
    k0_pay12 (F := Ideal) g x (ix2 p u)
      = ∑ h : Fin 3584, k0_pay2 (F := Ideal) g (ix2 p h) * k0_pay11 (F := Ideal) x (ix2 p h) := by
  unfold k0_pay12
  exact column_apply _ _ p u

private theorem pay13_apply (g x : Vec Ideal S128x3584 .bf16) (p : Fin 128) (u : Fin 1) :
    k0_pay13 (F := Ideal) g x (ix2 p u)
      = ∑ h : Fin 3584, k0_pay3 (F := Ideal) g (ix2 p h) * k0_pay11 (F := Ideal) x (ix2 p h) := by
  unfold k0_pay13
  exact column_apply _ _ p u

private theorem pay14_apply (g x : Vec Ideal S128x3584 .bf16) (p : Fin 128) (u : Fin 1) :
    k0_pay14 (F := Ideal) g x (ix2 p u)
      = ∑ h : Fin 3584, k0_pay4 (F := Ideal) g (ix2 p h) * k0_pay11 (F := Ideal) x (ix2 p h) := by
  unfold k0_pay14
  exact column_apply _ _ p u

/-- The d h_res block: row `p`, column `r * 4 + q` holds the inner product over the hidden axis of stream `r` of the
    gradient with stream `q` of the original streams. -/
theorem out5_eq (x0 : Vec Ideal S128x16 .bf16) (x1 : Vec Ideal S128x4 .bf16) (x2 : Vec Ideal S128x14336 .bf16)
    (x3 : Vec Ideal S128x3584 .bf16) (x4 : Vec Ideal S128x14336 .bf16) :
    out0_5 (F := Ideal) x0 x1 x2 x3 x4 = Cert.MixGrad.hresRows (n := 128) x2 x4 := by
  funext j
  obtain ⟨p, c, rfl⟩ : ∃ (p : Fin 128) (c : Fin 16), j = ix2 p c := ⟨j 0, j 1, eq_ix2 j⟩
  unfold Gen.out0_5
  refine (congrFun (View.canon_unit_zero (S := S128x16) zeros2 inb_S128x16_S128x16_0_0 _) (ix2 p c)).trans ?_
  match c with
  | ⟨0, _⟩ =>
    refine (pay16_col0 _ _ _ _ _ _ _ _ _ _ _ _ _ _ p).trans ((pay7_apply _ _ p 0).trans ?_)
    refine Eq.trans ?_ (Cert.MixGrad.hresRows_apply x2 x4 p ⟨0, by decide⟩ ⟨0, by decide⟩).symm
    unfold Cert.MixGrad.dotStreams
    exact Finset.sum_congr rfl fun h _ => congrArg₂ (· * ·) (widen_stream0 x4 p h) (widen_stream0 x2 p h)
  | ⟨1, _⟩ =>
    refine (pay16_col1 _ _ _ _ _ _ _ _ _ _ _ _ _ _ p).trans ((pay12_apply _ _ p 0).trans ?_)
    refine Eq.trans ?_ (Cert.MixGrad.hresRows_apply x2 x4 p ⟨0, by decide⟩ ⟨1, by decide⟩).symm
    unfold Cert.MixGrad.dotStreams
    exact Finset.sum_congr rfl fun h _ => congrArg₂ (· * ·) (widen_stream0 x4 p h) (widen_stream1 x2 p h)
  | ⟨2, _⟩ =>
    refine (pay16_col2 _ _ _ _ _ _ _ _ _ _ _ _ _ _ p).trans ?_
    refine Eq.trans ?_ (Cert.MixGrad.hresRows_apply x2 x4 p ⟨0, by decide⟩ ⟨2, by decide⟩).symm
    unfold Cert.MixGrad.dotStreams
    exact Finset.sum_congr rfl fun h _ => congrArg₂ (· * ·) (widen_stream0 x4 p h) (widen_stream2 x2 p h)
  | ⟨3, _⟩ =>
    refine (pay16_col3 _ _ _ _ _ _ _ _ _ _ _ _ _ _ p).trans ?_
    refine Eq.trans ?_ (Cert.MixGrad.hresRows_apply x2 x4 p ⟨0, by decide⟩ ⟨3, by decide⟩).symm
    unfold Cert.MixGrad.dotStreams
    exact Finset.sum_congr rfl fun h _ => congrArg₂ (· * ·) (widen_stream0 x4 p h) (widen_stream3 x2 p h)
  | ⟨4, _⟩ =>
    refine (pay16_col4 _ _ _ _ _ _ _ _ _ _ _ _ _ _ p).trans ((pay8_apply _ _ p 0).trans ?_)
    refine Eq.trans ?_ (Cert.MixGrad.hresRows_apply x2 x4 p ⟨1, by decide⟩ ⟨0, by decide⟩).symm
    unfold Cert.MixGrad.dotStreams
    exact Finset.sum_congr rfl fun h _ => congrArg₂ (· * ·) (widen_stream1 x4 p h) (widen_stream0 x2 p h)
  | ⟨5, _⟩ =>
    refine (pay16_col5 _ _ _ _ _ _ _ _ _ _ _ _ _ _ p).trans ((pay13_apply _ _ p 0).trans ?_)
    refine Eq.trans ?_ (Cert.MixGrad.hresRows_apply x2 x4 p ⟨1, by decide⟩ ⟨1, by decide⟩).symm
    unfold Cert.MixGrad.dotStreams
    exact Finset.sum_congr rfl fun h _ => congrArg₂ (· * ·) (widen_stream1 x4 p h) (widen_stream1 x2 p h)
  | ⟨6, _⟩ =>
    refine (pay16_col6 _ _ _ _ _ _ _ _ _ _ _ _ _ _ p).trans ?_
    refine Eq.trans ?_ (Cert.MixGrad.hresRows_apply x2 x4 p ⟨1, by decide⟩ ⟨2, by decide⟩).symm
    unfold Cert.MixGrad.dotStreams
    exact Finset.sum_congr rfl fun h _ => congrArg₂ (· * ·) (widen_stream1 x4 p h) (widen_stream2 x2 p h)
  | ⟨7, _⟩ =>
    refine (pay16_col7 _ _ _ _ _ _ _ _ _ _ _ _ _ _ p).trans ?_
    refine Eq.trans ?_ (Cert.MixGrad.hresRows_apply x2 x4 p ⟨1, by decide⟩ ⟨3, by decide⟩).symm
    unfold Cert.MixGrad.dotStreams
    exact Finset.sum_congr rfl fun h _ => congrArg₂ (· * ·) (widen_stream1 x4 p h) (widen_stream3 x2 p h)
  | ⟨8, _⟩ =>
    refine (pay16_col8 _ _ _ _ _ _ _ _ _ _ _ _ _ _ p).trans ((pay9_apply _ _ p 0).trans ?_)
    refine Eq.trans ?_ (Cert.MixGrad.hresRows_apply x2 x4 p ⟨2, by decide⟩ ⟨0, by decide⟩).symm
    unfold Cert.MixGrad.dotStreams
    exact Finset.sum_congr rfl fun h _ => congrArg₂ (· * ·) (widen_stream2 x4 p h) (widen_stream0 x2 p h)
  | ⟨9, _⟩ =>
    refine (pay16_col9 _ _ _ _ _ _ _ _ _ _ _ _ _ _ p).trans ((pay14_apply _ _ p 0).trans ?_)
    refine Eq.trans ?_ (Cert.MixGrad.hresRows_apply x2 x4 p ⟨2, by decide⟩ ⟨1, by decide⟩).symm
    unfold Cert.MixGrad.dotStreams
    exact Finset.sum_congr rfl fun h _ => congrArg₂ (· * ·) (widen_stream2 x4 p h) (widen_stream1 x2 p h)
  | ⟨10, _⟩ =>
    refine (pay16_col10 _ _ _ _ _ _ _ _ _ _ _ _ _ _ p).trans ?_
    refine Eq.trans ?_ (Cert.MixGrad.hresRows_apply x2 x4 p ⟨2, by decide⟩ ⟨2, by decide⟩).symm
    unfold Cert.MixGrad.dotStreams
    exact Finset.sum_congr rfl fun h _ => congrArg₂ (· * ·) (widen_stream2 x4 p h) (widen_stream2 x2 p h)
  | ⟨11, _⟩ =>
    refine (pay16_col11 _ _ _ _ _ _ _ _ _ _ _ _ _ _ p).trans ?_
    refine Eq.trans ?_ (Cert.MixGrad.hresRows_apply x2 x4 p ⟨2, by decide⟩ ⟨3, by decide⟩).symm
    unfold Cert.MixGrad.dotStreams
    exact Finset.sum_congr rfl fun h _ => congrArg₂ (· * ·) (widen_stream2 x4 p h) (widen_stream3 x2 p h)
  | ⟨12, _⟩ =>
    refine (pay16_col12 _ _ _ _ _ _ _ _ _ _ _ _ _ _ p).trans ((pay10_apply _ _ p 0).trans ?_)
    refine Eq.trans ?_ (Cert.MixGrad.hresRows_apply x2 x4 p ⟨3, by decide⟩ ⟨0, by decide⟩).symm
    unfold Cert.MixGrad.dotStreams
    exact Finset.sum_congr rfl fun h _ => congrArg₂ (· * ·) (widen_stream3 x4 p h) (widen_stream0 x2 p h)
  | ⟨13, _⟩ =>
    refine (pay16_col13 _ _ _ _ _ _ _ _ _ _ _ _ _ _ p).trans ?_
    refine Eq.trans ?_ (Cert.MixGrad.hresRows_apply x2 x4 p ⟨3, by decide⟩ ⟨1, by decide⟩).symm
    unfold Cert.MixGrad.dotStreams
    exact Finset.sum_congr rfl fun h _ => (mulf_apply _ _ _).trans (congrArg₂ (· * ·) (widen_stream3 x4 p h) (widen_stream1 x2 p h))
  | ⟨14, _⟩ =>
    refine (pay16_col14 _ _ _ _ _ _ _ _ _ _ _ _ _ _ p).trans ?_
    refine Eq.trans ?_ (Cert.MixGrad.hresRows_apply x2 x4 p ⟨3, by decide⟩ ⟨2, by decide⟩).symm
    unfold Cert.MixGrad.dotStreams
    exact Finset.sum_congr rfl fun h _ => congrArg₂ (· * ·) (widen_stream3 x4 p h) (widen_stream2 x2 p h)
  | ⟨15, _⟩ =>
    refine (pay16_col15 _ _ _ _ _ _ _ _ _ _ _ _ _ _ p).trans ?_
    refine Eq.trans ?_ (Cert.MixGrad.hresRows_apply x2 x4 p ⟨3, by decide⟩ ⟨3, by decide⟩).symm
    unfold Cert.MixGrad.dotStreams
    exact Finset.sum_congr rfl fun h _ => congrArg₂ (· * ·) (widen_stream3 x4 p h) (widen_stream3 x2 p h)
  | ⟨n + 16, hn⟩ => exact absurd hn (by omega)

end Cert.KernelIdeal.Blocks

end
-- ==== Proof.BlockHPost.lean ====
/-
  What the kernel body leaves in the block of the d h_post output, as the specification's row function: every row's four
  inner products, over the hidden axis, of a stream of the incoming gradient with the single stream.
-/
import proofs.«103172_j56564719288437_2_alg».proof.Proof.Gen.KernelIdeal.Frame
import proofs.«103172_j56564719288437_2_alg».proof.Proof.Spec
import proofs.«103172_j56564719288437_2_alg».proof.Proof.LibKeepdims
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.ValueIdx

/-- The zero offsets of a whole-block rectangle, however spelt. -/
private theorem zeros2 : (![0, 0] : Fin 2 → Nat) = fun _ => 0 := funext fun a => by fin_cases a <;> rfl

/-- An add-reduction over the lane axis of a [128, 3584] block, read at row `p`: the sum over the row's lanes. -/
private theorem rowSum_apply (v : FVec Ideal S128x3584 .f32) (p : Fin 128) :
    multiReduction (F := Ideal) .add [1] S128 v 0x00000000#32 reduces_S128x3584_S128 (.inl rfl) rfl (ix1 p)
      = ∑ h : Fin 3584, v (ix2 p h) := by
  refine (Ideal.multiReduction_add_single v _ reduces_S128x3584_S128 (.inl rfl) rfl (ix1 p)).trans ?_
  refine Finset.sum_congr rfl fun k _ => ?_
  exact congrArg v (funext fun a => Fin.ext (by match a with | ⟨0, _⟩ => rfl | ⟨1, _⟩ => rfl))

/-- The column of row-wise inner products of two [128, 3584] blocks, read at row `p`. -/
private theorem column_apply (a b : FVec Ideal S128x3584 .f32) (p : Fin 128) (u : Fin 1) :
    shapeCast S128x1 (multiReduction (F := Ideal) .add [1] S128 (mulf a b) 0x00000000#32 reduces_S128x3584_S128 (.inl rfl) rfl)
        shapeCasts_S128_S128x1 (ix2 p u)
      = ∑ h : Fin 3584, a (ix2 p h) * b (ix2 p h) :=
  (Cert.LibKeepdims.shapeCast_a_a1_apply _ shapeCasts_S128_S128x1 p u).trans (rowSum_apply (mulf a b) p)

/-- A bf16 block widened to f32 is, at the ideal values, the block itself. -/
private theorem widen_apply (v : Vec Ideal S128x3584 .bf16) (j : S128x3584.Idx) :
    extf (F := Ideal) .f32 (shapeCast S128x3584 v shapeCasts_S128x3584_S128x3584) bitsLt_bf16_f32 j = v j :=
  congrFun (shapeCast_self v shapeCasts_S128x3584_S128x3584) j

/-- Stream 0 of a row of four streams: lanes 0 … 3583. -/
private theorem ld_stream0 (x : Vec Ideal S128x14336 .bf16) (p : Fin 128) (h : Fin 3584) :
    View.ld x r0_0 (ix2 p h) = x (ix2 p (Cert.MixGrad.lane 0 h)) :=
  congrArg x (funext fun a => Fin.ext (by
    match a with
    | ⟨0, _⟩ => show 0 + 1 * p.val = p.val; omega
    | ⟨1, _⟩ => show 0 + 1 * h.val = 0 * 3584 + h.val; omega))

/-- Stream 1: lanes 3584 … 7167. -/
private theorem ld_stream1 (x : Vec Ideal S128x14336 .bf16) (p : Fin 128) (h : Fin 3584) :
    View.ld x r0_1 (ix2 p h) = x (ix2 p (Cert.MixGrad.lane 1 h)) :=
  congrArg x (funext fun a => Fin.ext (by
    match a with
    | ⟨0, _⟩ => show 0 + 1 * p.val = p.val; omega
    | ⟨1, _⟩ => show 3584 + 1 * h.val = 1 * 3584 + h.val; omega))

/-- Stream 2: lanes 7168 … 10751. -/
private theorem ld_stream2 (x : Vec Ideal S128x14336 .bf16) (p : Fin 128) (h : Fin 3584) :
    View.ld x r0_2 (ix2 p h) = x (ix2 p (Cert.MixGrad.lane 2 h)) :=
  congrArg x (funext fun a => Fin.ext (by
    match a with
    | ⟨0, _⟩ => show 0 + 1 * p.val = p.val; omega
    | ⟨1, _⟩ => show 7168 + 1 * h.val = 2 * 3584 + h.val; omega))

/-- Stream 3: lanes 10752 … 14335. -/
private theorem ld_stream3 (x : Vec Ideal S128x14336 .bf16) (p : Fin 128) (h : Fin 3584) :
    View.ld x r0_3 (ix2 p h) = x (ix2 p (Cert.MixGrad.lane 3 h)) :=
  congrArg x (funext fun a => Fin.ext (by
    match a with
    | ⟨0, _⟩ => show 0 + 1 * p.val = p.val; omega
    | ⟨1, _⟩ => show 10752 + 1 * h.val = 3 * 3584 + h.val; omega))

/-- A bf16 block of stream `k` of a row of four streams, widened to f32, read at `(p, h)`. -/
private theorem widen_stream0 (x : Vec Ideal S128x14336 .bf16) (p : Fin 128) (h : Fin 3584) :
    extf (F := Ideal) .f32 (shapeCast S128x3584 (View.ld x r0_0) shapeCasts_S128x3584_S128x3584) bitsLt_bf16_f32 (ix2 p h)
      = x (ix2 p (Cert.MixGrad.lane ⟨0, by decide⟩ h)) :=
  (widen_apply _ _).trans (ld_stream0 x p h)

private theorem widen_stream1 (x : Vec Ideal S128x14336 .bf16) (p : Fin 128) (h : Fin 3584) :
    extf (F := Ideal) .f32 (shapeCast S128x3584 (View.ld x r0_1) shapeCasts_S128x3584_S128x3584) bitsLt_bf16_f32 (ix2 p h)
      = x (ix2 p (Cert.MixGrad.lane ⟨1, by decide⟩ h)) :=
  (widen_apply _ _).trans (ld_stream1 x p h)

private theorem widen_stream2 (x : Vec Ideal S128x14336 .bf16) (p : Fin 128) (h : Fin 3584) :
    extf (F := Ideal) .f32 (shapeCast S128x3584 (View.ld x r0_2) shapeCasts_S128x3584_S128x3584) bitsLt_bf16_f32 (ix2 p h)
      = x (ix2 p (Cert.MixGrad.lane ⟨2, by decide⟩ h)) :=
  (widen_apply _ _).trans (ld_stream2 x p h)

private theorem widen_stream3 (x : Vec Ideal S128x14336 .bf16) (p : Fin 128) (h : Fin 3584) :
    extf (F := Ideal) .f32 (shapeCast S128x3584 (View.ld x r0_3) shapeCasts_S128x3584_S128x3584) bitsLt_bf16_f32 (ix2 p h)
      = x (ix2 p (Cert.MixGrad.lane ⟨3, by decide⟩ h)) :=
  (widen_apply _ _).trans (ld_stream3 x p h)

/-- Columns `[128, 1]` laid side by side along axis 1, read at `(p, c)`: the `c`-th column's entry of row `p`. -/
private theorem concat_col {α : Type} {N : Nat} (xs : List ((s : Shape) × (s.Idx → α)))
    (h : Shape.Concatenates (xs.map (·.1)) ⟨2, ![128, N]⟩ 1) (p : Fin 128) (c : Fin N) (hk : c.val < xs.length)
    (x₁ : S128x1.Idx → α) (hxk : xs[c.val] = ⟨S128x1, x₁⟩)
    (hpre : (((xs.take c.val).map (·.1)).map fun s =>
      if h : s.rank = 2 then s.size ((1 : Fin 2).cast h.symm) else 0).sum = c.val) :
    concatenate ⟨2, ![128, N]⟩ 1 xs h (ix2 p c) = x₁ (ix2 p (0 : Fin 1)) :=
  concatenate_apply_piece (t := ⟨2, ![128, N]⟩) (1 : Fin 2) xs h (ix2 p c) c.val hk S128x1 x₁ hxk rfl c.val hpre
    (ix2 p (0 : Fin 1)) (fun b => match b with
      | ⟨0, _⟩ => fun _ => rfl
      | ⟨1, _⟩ => fun hne => absurd rfl hne) rfl

/-- The single stream's block is loaded whole. -/
private theorem ld_single (x : Vec Ideal S128x3584 .bf16) : View.ld x r0_5 = x :=
  View.ld_unit_zero (S := S128x3584) zeros2 inb_S128x3584_S128x3584_0_0 x

/-- The single stream's block widened to f32, read at an index. -/
private theorem widen_single (x : Vec Ideal S128x3584 .bf16) (j : S128x3584.Idx) :
    extf (F := Ideal) .f32 (shapeCast S128x3584 (View.ld x r0_5) shapeCasts_S128x3584_S128x3584) bitsLt_bf16_f32 j = x j :=
  (widen_apply _ _).trans (congrFun (ld_single x) j)

/-- The stored [128, 4] block, column by column: column 0 is the column computed earlier, columns 1, 2, 3 are the
    row-wise inner products of streams 1, 2, 3 of the gradient with the single stream. -/
private theorem pay19_col0 (g1 g2 g3 s : FVec Ideal S128x3584 .f32) (c0 : FVec Ideal S128x1 .f32) (p : Fin 128) :
    k0_pay19 (F := Ideal) g1 g2 g3 s c0 (ix2 p (⟨0, by decide⟩ : Fin 4)) = c0 (ix2 p (0 : Fin 1)) := by
  unfold k0_pay19
  rw [truncf_apply]
  exact concat_col _ _ p ⟨0, by decide⟩ (by show (0 : Nat) < 4; decide) _ rfl rfl

private theorem pay19_col1 (g1 g2 g3 s : FVec Ideal S128x3584 .f32) (c0 : FVec Ideal S128x1 .f32) (p : Fin 128) :
    k0_pay19 (F := Ideal) g1 g2 g3 s c0 (ix2 p (⟨1, by decide⟩ : Fin 4)) = ∑ h : Fin 3584, g1 (ix2 p h) * s (ix2 p h) := by
  unfold k0_pay19
  rw [truncf_apply]
  exact (concat_col _ _ p ⟨1, by decide⟩ (by show (1 : Nat) < 4; decide) _ rfl rfl).trans (column_apply g1 s p 0)

private theorem pay19_col2 (g1 g2 g3 s : FVec Ideal S128x3584 .f32) (c0 : FVec Ideal S128x1 .f32) (p : Fin 128) :
    k0_pay19 (F := Ideal) g1 g2 g3 s c0 (ix2 p (⟨2, by decide⟩ : Fin 4)) = ∑ h : Fin 3584, g2 (ix2 p h) * s (ix2 p h) := by
  unfold k0_pay19
  rw [truncf_apply]
  exact (concat_col _ _ p ⟨2, by decide⟩ (by show (2 : Nat) < 4; decide) _ rfl rfl).trans (column_apply g2 s p 0)

private theorem pay19_col3 (g1 g2 g3 s : FVec Ideal S128x3584 .f32) (c0 : FVec Ideal S128x1 .f32) (p : Fin 128) :
    k0_pay19 (F := Ideal) g1 g2 g3 s c0 (ix2 p (⟨3, by decide⟩ : Fin 4)) = ∑ h : Fin 3584, g3 (ix2 p h) * s (ix2 p h) := by
  unfold k0_pay19
  rw [truncf_apply]
  exact (concat_col _ _ p ⟨3, by decide⟩ (by show (3 : Nat) < 4; decide) _ rfl rfl).trans (column_apply g3 s p 0)

/-- The column computed earlier: the row-wise inner product of stream 0 of the gradient with the single stream. -/
private theorem pay18_apply (g0 : FVec Ideal S128x3584 .f32) (v : Vec Ideal S128x3584 .bf16) (p : Fin 128) (u : Fin 1) :
    k0_pay18 (F := Ideal) g0 v (ix2 p u) = ∑ h : Fin 3584, g0 (ix2 p h) * k0_pay17 (F := Ideal) v (ix2 p h) := by
  unfold k0_pay18
  exact column_apply g0 (k0_pay17 v) p u

/-- The d h_post block: row `p`, column `r` holds the inner product over the hidden axis of stream `r` of the gradient
    with the single stream. -/
theorem out6_eq (x0 : Vec Ideal S128x16 .bf16) (x1 : Vec Ideal S128x4 .bf16) (x2 : Vec Ideal S128x14336 .bf16)
    (x3 : Vec Ideal S128x3584 .bf16) (x4 : Vec Ideal S128x14336 .bf16) :
    out0_6 (F := Ideal) x0 x1 x2 x3 x4 = Cert.MixGrad.hpostRows (n := 128) x3 x4 := by
  funext j
  obtain ⟨p, c, rfl⟩ : ∃ (p : Fin 128) (c : Fin 4), j = ix2 p c := ⟨j 0, j 1, eq_ix2 j⟩
  unfold Gen.out0_6
  refine (congrFun (View.canon_unit_zero (S := S128x4) zeros2 inb_S128x4_S128x4_0_0 _) (ix2 p c)).trans ?_
  match c with
  | ⟨0, _⟩ =>
    refine (pay19_col0 _ _ _ _ _ p).trans ((pay18_apply _ _ p 0).trans ?_)
    show _ = Cert.MixGrad.dotSingle x3 x4 p ⟨0, _⟩
    unfold Cert.MixGrad.dotSingle
    exact Finset.sum_congr rfl fun h _ => congrArg₂ (· * ·) (widen_stream0 x4 p h) (widen_single x3 (ix2 p h))
  | ⟨1, _⟩ =>
    refine (pay19_col1 _ _ _ _ _ p).trans ?_
    show _ = Cert.MixGrad.dotSingle x3 x4 p ⟨1, _⟩
    unfold Cert.MixGrad.dotSingle
    exact Finset.sum_congr rfl fun h _ => congrArg₂ (· * ·) (widen_stream1 x4 p h) (widen_single x3 (ix2 p h))
  | ⟨2, _⟩ =>
    refine (pay19_col2 _ _ _ _ _ p).trans ?_
    show _ = Cert.MixGrad.dotSingle x3 x4 p ⟨2, _⟩
    unfold Cert.MixGrad.dotSingle
    exact Finset.sum_congr rfl fun h _ => congrArg₂ (· * ·) (widen_stream2 x4 p h) (widen_single x3 (ix2 p h))
  | ⟨3, _⟩ =>
    refine (pay19_col3 _ _ _ _ _ p).trans ?_
    show _ = Cert.MixGrad.dotSingle x3 x4 p ⟨3, _⟩
    unfold Cert.MixGrad.dotSingle
    exact Finset.sum_congr rfl fun h _ => congrArg₂ (· * ·) (widen_stream3 x4 p h) (widen_single x3 (ix2 p h))
  | ⟨n + 4, hn⟩ => exact absurd hn (by omega)

end Cert.KernelIdeal.Blocks

end
-- ==== Proof.BlockX.lean ====
/-
  The block of the streams' gradient, as the specification's row function.

  The body writes the [128, 14336] block in four stores, one per stream `q`: into lanes `q · 3584 …` goes

      (((0 + c₀ · g₀) + c₁ · g₁) + c₂ · g₂) + c₃ · g₃

  where `cᵣ` is entry `(r, q)` of the row's 4×4 matrix (column `r · 4 + q` of the [128, 16] block, a [128, 1] column
  widened and broadcast along the lanes) and `gᵣ` is stream `r` of the incoming gradient, widened. Over the extended
  reals widening and narrowing are the identity and the start value is `0`, so at row `p`, lane `q · 3584 + h` every
  store holds `∑ᵣ C(p, r · 4 + q) · g(p, r · 3584 + h)`: each is the block of ONE function of the buffer's index, the
  specification's `xgradRows`, and the four stores tile the block.
-/
import proofs.«103172_j56564719288437_2_alg».proof.Proof.Gen.KernelIdeal.Frame
import proofs.«103172_j56564719288437_2_alg».proof.Proof.Spec
import proofs.«103172_j56564719288437_2_alg».proof.Proof.LibKeepdims
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.ValueIdx

namespace BlockX

/-- Where the rectangle of the 3584 lanes starting at lane `o` places its index `(p, h)`: at `(p, o + h)`. -/
theorem emb_lanes (o : Nat) (inb : ∀ a, (![0, o] : Fin 2 → Nat) a + S128x3584.size a ≤ S128x14336.size a)
    (p : Fin 128) (h : Fin 3584) (c : Fin 14336) (hc : c.val = o + h.val) :
    (Rect.unit (s := S128x14336) ![0, o] S128x3584.size inb).emb (ix2 p h) = ix2 p c :=
  funext fun a => Fin.ext (by
    match a with
    | ⟨0, _⟩ => show 0 + 1 * p.val = p.val; omega
    | ⟨1, _⟩ => show o + 1 * h.val = c.val; omega)

/-- A load through that rectangle reads, at `(p, h)`, the block at `(p, o + h)`. -/
theorem ld_lanes (x : Vec Ideal S128x14336 .bf16) (o : Nat)
    (inb : ∀ a, (![0, o] : Fin 2 → Nat) a + S128x3584.size a ≤ S128x14336.size a)
    (p : Fin 128) (h : Fin 3584) (c : Fin 14336) (hc : c.val = o + h.val) :
    View.ld x (Rect.unit (s := S128x14336) ![0, o] S128x3584.size inb) (ix2 p h) = x (ix2 p c) :=
  congrArg x (emb_lanes o inb p h c hc)

/-- A load of column `o` of a block of sixteen columns reads, at `(p, 0)`, the block at `(p, o)`. -/
theorem ld_col (x : Vec Ideal S128x16 .bf16) (o : Nat)
    (inb : ∀ a, (![0, o] : Fin 2 → Nat) a + S128x1.size a ≤ S128x16.size a)
    (p : Fin 128) (u : Fin 1) (c : Fin 16) (hc : c.val = o) :
    View.ld x (Rect.unit (s := S128x16) ![0, o] S128x1.size inb) (ix2 p u) = x (ix2 p c) :=
  congrArg x (funext fun a => Fin.ext (by
    match a with
    | ⟨0, _⟩ => show 0 + 1 * p.val = p.val; omega
    | ⟨1, _⟩ => show o + 1 * u.val = c.val; omega))

/-- A widened stream of the incoming gradient at an index is the stream there. -/
theorem pay2_apply (v : Vec Ideal S128x3584 .bf16) (i : S128x3584.Idx) : k0_pay2 v i = v i := by
  unfold k0_pay2; simp only [extf_apply, shapeCast_self]
theorem pay3_apply (v : Vec Ideal S128x3584 .bf16) (i : S128x3584.Idx) : k0_pay3 v i = v i := by
  unfold k0_pay3; simp only [extf_apply, shapeCast_self]
theorem pay4_apply (v : Vec Ideal S128x3584 .bf16) (i : S128x3584.Idx) : k0_pay4 v i = v i := by
  unfold k0_pay4; simp only [extf_apply, shapeCast_self]
theorem pay5_apply (v : Vec Ideal S128x3584 .bf16) (i : S128x3584.Idx) : k0_pay5 v i = v i := by
  unfold k0_pay5; simp only [extf_apply, shapeCast_self]

/-- The value stored for column 0 at an index: the four weighted streams added left to right from `0`. -/
theorem pay20_apply (v2 v5 v8 v11 : FVec Ideal S128x3584 .f32) (v94 v100 v106 v112 : Vec Ideal S128x1 .bf16)
    (p : Fin 128) (h : Fin 3584) :
    k0_pay20 v2 v5 v8 v11 v94 v100 v106 v112 (ix2 p h)
      = v94 (ix2 p (0 : Fin 1)) * v2 (ix2 p h) + v100 (ix2 p (0 : Fin 1)) * v5 (ix2 p h)
          + v106 (ix2 p (0 : Fin 1)) * v8 (ix2 p h) + v112 (ix2 p (0 : Fin 1)) * v11 (ix2 p h) := by
  unfold k0_pay20
  simp only [truncf_apply, addf_apply, mulf_apply, extf_apply, shapeCast_self, broadcast_apply,
    Cert.LibKeepdims.broadcastTo_a1_ab_apply]
  show Ideal.ofBits .f32 0x00000000#32 + _ * _ + _ * _ + _ * _ + _ * _ = _
  rw [Ideal.ofBits_zero_f32, zero_add]

/-- The same for column 1, whose start value arrives as an argument. -/
theorem pay22_apply (v2 v5 v8 v11 v120 : FVec Ideal S128x3584 .f32) (v121 v127 v133 v139 : Vec Ideal S128x1 .bf16)
    (p : Fin 128) (h : Fin 3584) :
    k0_pay22 v2 v5 v8 v11 v120 v121 v127 v133 v139 (ix2 p h)
      = v120 (ix2 p h) + v121 (ix2 p (0 : Fin 1)) * v2 (ix2 p h) + v127 (ix2 p (0 : Fin 1)) * v5 (ix2 p h)
          + v133 (ix2 p (0 : Fin 1)) * v8 (ix2 p h) + v139 (ix2 p (0 : Fin 1)) * v11 (ix2 p h) := by
  unfold k0_pay22
  simp only [truncf_apply, addf_apply, mulf_apply, extf_apply, shapeCast_self,
    Cert.LibKeepdims.broadcastTo_a1_ab_apply]

/-- That start value: the zero splat. -/
theorem pay21_apply (i : S128x3584.Idx) : k0_pay21 (F := Ideal) i = 0 := by
  unfold k0_pay21
  simp only [broadcast_apply]
  exact Ideal.ofBits_zero_f32

/-- Column 2 is computed in two parts: the first two weighted streams from `0`, -/
theorem pay23_apply (v2 v5 : FVec Ideal S128x3584 .f32) (v148 v154 : Vec Ideal S128x1 .bf16)
    (p : Fin 128) (h : Fin 3584) :
    k0_pay23 v2 v5 v148 v154 (ix2 p h)
      = v148 (ix2 p (0 : Fin 1)) * v2 (ix2 p h) + v154 (ix2 p (0 : Fin 1)) * v5 (ix2 p h) := by
  unfold k0_pay23
  simp only [addf_apply, mulf_apply, extf_apply, shapeCast_self, broadcast_apply,
    Cert.LibKeepdims.broadcastTo_a1_ab_apply]
  show Ideal.ofBits .f32 0x00000000#32 + _ * _ + _ * _ = _
  rw [Ideal.ofBits_zero_f32, zero_add]

/-- the third weight already broadcast, -/
theorem pay24_apply (v160 : Vec Ideal S128x1 .bf16) (p : Fin 128) (h : Fin 3584) :
    k0_pay24 v160 (ix2 p h) = v160 (ix2 p (0 : Fin 1)) := by
  unfold k0_pay24
  simp only [extf_apply, shapeCast_self, Cert.LibKeepdims.broadcastTo_a1_ab_apply]

/-- and the last two weighted streams added to the first part. -/
theorem pay25_apply (v8 v11 v159 v163 : FVec Ideal S128x3584 .f32) (v166 : Vec Ideal S128x1 .bf16)
    (p : Fin 128) (h : Fin 3584) :
    k0_pay25 v8 v11 v159 v163 v166 (ix2 p h)
      = v159 (ix2 p h) + v163 (ix2 p h) * v8 (ix2 p h) + v166 (ix2 p (0 : Fin 1)) * v11 (ix2 p h) := by
  unfold k0_pay25
  simp only [truncf_apply, addf_apply, mulf_apply, extf_apply, shapeCast_self,
    Cert.LibKeepdims.broadcastTo_a1_ab_apply]

/-- The value stored for column 3 at an index. -/
theorem pay26_apply (v2 v5 v8 v11 : FVec Ideal S128x3584 .f32) (v175 v181 v187 v193 : Vec Ideal S128x1 .bf16)
    (p : Fin 128) (h : Fin 3584) :
    k0_pay26 v2 v5 v8 v11 v175 v181 v187 v193 (ix2 p h)
      = v175 (ix2 p (0 : Fin 1)) * v2 (ix2 p h) + v181 (ix2 p (0 : Fin 1)) * v5 (ix2 p h)
          + v187 (ix2 p (0 : Fin 1)) * v8 (ix2 p h) + v193 (ix2 p (0 : Fin 1)) * v11 (ix2 p h) := by
  unfold k0_pay26
  simp only [truncf_apply, addf_apply, mulf_apply, extf_apply, shapeCast_self, broadcast_apply,
    Cert.LibKeepdims.broadcastTo_a1_ab_apply]
  show Ideal.ofBits .f32 0x00000000#32 + _ * _ + _ * _ + _ * _ + _ * _ = _
  rw [Ideal.ofBits_zero_f32, zero_add]

/-- The specification at lane `h` of stream `q`, written out: column `q` of the row's matrix against the four
    streams of the incoming gradient. -/
theorem xgrad_at (x0 : Vec Ideal S128x16 .bf16) (x4 : Vec Ideal S128x14336 .bf16) (p : Fin 128) (q : Fin 4) (h : Fin 3584) :
    Cert.MixGrad.xgradRows (n := 128) x0 x4 (ix2 p (Cert.MixGrad.lane q h))
      = x0 (ix2 p (Cert.MixGrad.cell 0 q)) * x4 (ix2 p (Cert.MixGrad.lane 0 h))
        + x0 (ix2 p (Cert.MixGrad.cell 1 q)) * x4 (ix2 p (Cert.MixGrad.lane 1 h))
        + x0 (ix2 p (Cert.MixGrad.cell 2 q)) * x4 (ix2 p (Cert.MixGrad.lane 2 h))
        + x0 (ix2 p (Cert.MixGrad.cell 3 q)) * x4 (ix2 p (Cert.MixGrad.lane 3 h)) := by
  rw [Cert.MixGrad.xgradRows_apply]
  unfold Cert.MixGrad.mixColumn
  rw [Fin.sum_univ_four]

/-- The store into lanes `0 … 3583` (stream 0) holds the specification there. -/
theorem piece0 (x0 : Vec Ideal S128x16 .bf16) (x4 : Vec Ideal S128x14336 .bf16) (x : (⟨2, ![128, 3584]⟩ : Shape).Idx) :
    k0_pay20 (k0_pay2 (View.ld x4 r0_0)) (k0_pay3 (View.ld x4 r0_1)) (k0_pay4 (View.ld x4 r0_2)) (k0_pay5 (View.ld x4 r0_3))
        (View.ld x0 r0_7) (View.ld x0 r0_8) (View.ld x0 r0_9) (View.ld x0 r0_10) x
      = Cert.MixGrad.xgradRows (n := 128) x0 x4 (r0_0.emb x) := by
  obtain ⟨p, h, rfl⟩ : ∃ (p : Fin 128) (h : Fin 3584), x = ix2 p h := ⟨x 0, x 1, eq_ix2 x⟩
  rw [emb_lanes 0 _ p h (Cert.MixGrad.lane 0 h) (by show 0 * 3584 + h.val = 0 + h.val; omega), xgrad_at, pay20_apply,
    pay2_apply, pay3_apply, pay4_apply, pay5_apply,
    ld_col x0 0 _ p 0 (Cert.MixGrad.cell 0 0) rfl, ld_col x0 4 _ p 0 (Cert.MixGrad.cell 1 0) rfl,
    ld_col x0 8 _ p 0 (Cert.MixGrad.cell 2 0) rfl, ld_col x0 12 _ p 0 (Cert.MixGrad.cell 3 0) rfl,
    ld_lanes x4 0 _ p h (Cert.MixGrad.lane 0 h) (by show 0 * 3584 + h.val = 0 + h.val; omega),
    ld_lanes x4 3584 _ p h (Cert.MixGrad.lane 1 h) (by show 1 * 3584 + h.val = 3584 + h.val; omega),
    ld_lanes x4 7168 _ p h (Cert.MixGrad.lane 2 h) (by show 2 * 3584 + h.val = 7168 + h.val; omega),
    ld_lanes x4 10752 _ p h (Cert.MixGrad.lane 3 h) (by show 3 * 3584 + h.val = 10752 + h.val; omega)]

/-- The store into lanes `3584 … 7167` (stream 1) holds the specification there. -/
theorem piece1 (x0 : Vec Ideal S128x16 .bf16) (x4 : Vec Ideal S128x14336 .bf16) (x : (⟨2, ![128, 3584]⟩ : Shape).Idx) :
    k0_pay22 (k0_pay2 (View.ld x4 r0_0)) (k0_pay3 (View.ld x4 r0_1)) (k0_pay4 (View.ld x4 r0_2)) (k0_pay5 (View.ld x4 r0_3))
        (k0_pay21 (F := Ideal)) (View.ld x0 r0_11) (View.ld x0 r0_12) (View.ld x0 r0_13) (View.ld x0 r0_14) x
      = Cert.MixGrad.xgradRows (n := 128) x0 x4 (r0_1.emb x) := by
  obtain ⟨p, h, rfl⟩ : ∃ (p : Fin 128) (h : Fin 3584), x = ix2 p h := ⟨x 0, x 1, eq_ix2 x⟩
  rw [emb_lanes 3584 _ p h (Cert.MixGrad.lane 1 h) (by show 1 * 3584 + h.val = 3584 + h.val; omega), xgrad_at, pay22_apply,
    pay21_apply, zero_add, pay2_apply, pay3_apply, pay4_apply, pay5_apply,
    ld_col x0 1 _ p 0 (Cert.MixGrad.cell 0 1) rfl, ld_col x0 5 _ p 0 (Cert.MixGrad.cell 1 1) rfl,
    ld_col x0 9 _ p 0 (Cert.MixGrad.cell 2 1) rfl, ld_col x0 13 _ p 0 (Cert.MixGrad.cell 3 1) rfl,
    ld_lanes x4 0 _ p h (Cert.MixGrad.lane 0 h) (by show 0 * 3584 + h.val = 0 + h.val; omega),
    ld_lanes x4 3584 _ p h (Cert.MixGrad.lane 1 h) (by show 1 * 3584 + h.val = 3584 + h.val; omega),
    ld_lanes x4 7168 _ p h (Cert.MixGrad.lane 2 h) (by show 2 * 3584 + h.val = 7168 + h.val; omega),
    ld_lanes x4 10752 _ p h (Cert.MixGrad.lane 3 h) (by show 3 * 3584 + h.val = 10752 + h.val; omega)]

/-- The store into lanes `7168 … 10751` (stream 2) holds the specification there. -/
theorem piece2 (x0 : Vec Ideal S128x16 .bf16) (x4 : Vec Ideal S128x14336 .bf16) (x : (⟨2, ![128, 3584]⟩ : Shape).Idx) :
    k0_pay25 (k0_pay4 (View.ld x4 r0_2)) (k0_pay5 (View.ld x4 r0_3))
        (k0_pay23 (k0_pay2 (View.ld x4 r0_0)) (k0_pay3 (View.ld x4 r0_1)) (View.ld x0 r0_15) (View.ld x0 r0_16))
        (k0_pay24 (View.ld x0 r0_17)) (View.ld x0 r0_18) x
      = Cert.MixGrad.xgradRows (n := 128) x0 x4 (r0_2.emb x) := by
  obtain ⟨p, h, rfl⟩ : ∃ (p : Fin 128) (h : Fin 3584), x = ix2 p h := ⟨x 0, x 1, eq_ix2 x⟩
  rw [emb_lanes 7168 _ p h (Cert.MixGrad.lane 2 h) (by show 2 * 3584 + h.val = 7168 + h.val; omega), xgrad_at, pay25_apply,
    pay23_apply, pay24_apply, pay2_apply, pay3_apply, pay4_apply, pay5_apply,
    ld_col x0 2 _ p 0 (Cert.MixGrad.cell 0 2) rfl, ld_col x0 6 _ p 0 (Cert.MixGrad.cell 1 2) rfl,
    ld_col x0 10 _ p 0 (Cert.MixGrad.cell 2 2) rfl, ld_col x0 14 _ p 0 (Cert.MixGrad.cell 3 2) rfl,
    ld_lanes x4 0 _ p h (Cert.MixGrad.lane 0 h) (by show 0 * 3584 + h.val = 0 + h.val; omega),
    ld_lanes x4 3584 _ p h (Cert.MixGrad.lane 1 h) (by show 1 * 3584 + h.val = 3584 + h.val; omega),
    ld_lanes x4 7168 _ p h (Cert.MixGrad.lane 2 h) (by show 2 * 3584 + h.val = 7168 + h.val; omega),
    ld_lanes x4 10752 _ p h (Cert.MixGrad.lane 3 h) (by show 3 * 3584 + h.val = 10752 + h.val; omega)]

/-- The store into lanes `10752 … 14335` (stream 3) holds the specification there. -/
theorem piece3 (x0 : Vec Ideal S128x16 .bf16) (x4 : Vec Ideal S128x14336 .bf16) (x : (⟨2, ![128, 3584]⟩ : Shape).Idx) :
    k0_pay26 (k0_pay2 (View.ld x4 r0_0)) (k0_pay3 (View.ld x4 r0_1)) (k0_pay4 (View.ld x4 r0_2)) (k0_pay5 (View.ld x4 r0_3))
        (View.ld x0 r0_19) (View.ld x0 r0_20) (View.ld x0 r0_21) (View.ld x0 r0_22) x
      = Cert.MixGrad.xgradRows (n := 128) x0 x4 (r0_3.emb x) := by
  obtain ⟨p, h, rfl⟩ : ∃ (p : Fin 128) (h : Fin 3584), x = ix2 p h := ⟨x 0, x 1, eq_ix2 x⟩
  rw [emb_lanes 10752 _ p h (Cert.MixGrad.lane 3 h) (by show 3 * 3584 + h.val = 10752 + h.val; omega), xgrad_at, pay26_apply,
    pay2_apply, pay3_apply, pay4_apply, pay5_apply,
    ld_col x0 3 _ p 0 (Cert.MixGrad.cell 0 3) rfl, ld_col x0 7 _ p 0 (Cert.MixGrad.cell 1 3) rfl,
    ld_col x0 11 _ p 0 (Cert.MixGrad.cell 2 3) rfl, ld_col x0 15 _ p 0 (Cert.MixGrad.cell 3 3) rfl,
    ld_lanes x4 0 _ p h (Cert.MixGrad.lane 0 h) (by show 0 * 3584 + h.val = 0 + h.val; omega),
    ld_lanes x4 3584 _ p h (Cert.MixGrad.lane 1 h) (by show 1 * 3584 + h.val = 3584 + h.val; omega),
    ld_lanes x4 7168 _ p h (Cert.MixGrad.lane 2 h) (by show 2 * 3584 + h.val = 7168 + h.val; omega),
    ld_lanes x4 10752 _ p h (Cert.MixGrad.lane 3 h) (by show 3 * 3584 + h.val = 10752 + h.val; omega)]

end BlockX

open BlockX in
/-- What the body leaves in the block of the streams' gradient: in every row, stream `q` is the four streams of the
    incoming gradient mixed by column `q` of the row's 4×4 matrix. Each of the four stores writes one stream's lanes
    and holds the specification there, and together they tile the block. -/
theorem out7_eq (x0 : Vec Ideal S128x16 .bf16) (x1 : Vec Ideal S128x4 .bf16) (x2 : Vec Ideal S128x14336 .bf16)
    (x3 : Vec Ideal S128x3584 .bf16) (x4 : Vec Ideal S128x14336 .bf16) :
    out0_7 (F := Ideal) x0 x1 x2 x3 x4 = Cert.MixGrad.xgradRows (n := 128) x0 x4 := by
  funext j
  unfold Gen.out0_7
  refine View.canon_apply_of_pieces (Val := Elt Ideal) (S := S128x14336) (e := .bf16)
    (Cert.MixGrad.xgradRows (n := 128) x0 x4) _ (fun pc hpc => ?_) j (cover0_7 _ _ _ _ j)
  simp only [List.mem_cons, List.mem_nil_iff, or_false] at hpc
  rcases hpc with rfl | rfl | rfl | rfl
  · exact piece3 x0 x4
  · exact piece2 x0 x4
  · exact piece1 x0 x4
  · exact piece0 x0 x4

end Cert.KernelIdeal.Blocks

end
-- ==== Proof.BlockSub.lean ====
/-
  The block of the single stream's gradient, as the specification's row function.

  The body stores once, over the whole [128, 3584] block, the value

      (((0 + c₀ · g₀) + c₁ · g₁) + c₂ · g₂) + c₃ · g₃

  where `cᵣ` is column `r` of the row's 4-vector (a [128, 1] column, widened and broadcast along the lanes) and `gᵣ`
  is stream `r` of the incoming gradient (lanes `r · 3584 …` of the [128, 14336] block), widened. Over the extended reals
  widening and narrowing are the identity and the start value is `0`, so at row `p`, lane `h` this is
  `∑ᵣ c(p, r) · g(p, r · 3584 + h)`: the specification's `subgradRows`.
-/
import proofs.«103172_j56564719288437_2_alg».proof.Proof.Gen.KernelIdeal.Frame
import proofs.«103172_j56564719288437_2_alg».proof.Proof.Spec
import proofs.«103172_j56564719288437_2_alg».proof.Proof.LibKeepdims
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.ValueIdx

namespace BlockSub

/-- A load of the 3584 lanes starting at lane `o` of a row of four streams reads, at `(p, h)`, the block at
    `(p, o + h)`: a unit-stride rectangle places coordinate `y` at `offset + 1 · y`. -/
theorem ld_lanes (x : Vec Ideal S128x14336 .bf16) (o : Nat)
    (inb : ∀ a, (![0, o] : Fin 2 → Nat) a + S128x3584.size a ≤ S128x14336.size a)
    (p : Fin 128) (h : Fin 3584) (c : Fin 14336) (hc : c.val = o + h.val) :
    View.ld x (Rect.unit (s := S128x14336) ![0, o] S128x3584.size inb) (ix2 p h) = x (ix2 p c) :=
  congrArg x (funext fun a => Fin.ext (by
    match a with
    | ⟨0, _⟩ => show 0 + 1 * p.val = p.val; omega
    | ⟨1, _⟩ => show o + 1 * h.val = c.val; omega))

/-- A load of column `o` of a block of four columns reads, at `(p, 0)`, the block at `(p, o)`. -/
theorem ld_col (x : Vec Ideal S128x4 .bf16) (o : Nat)
    (inb : ∀ a, (![0, o] : Fin 2 → Nat) a + S128x1.size a ≤ S128x4.size a)
    (p : Fin 128) (u : Fin 1) (c : Fin 4) (hc : c.val = o) :
    View.ld x (Rect.unit (s := S128x4) ![0, o] S128x1.size inb) (ix2 p u) = x (ix2 p c) :=
  congrArg x (funext fun a => Fin.ext (by
    match a with
    | ⟨0, _⟩ => show 0 + 1 * p.val = p.val; omega
    | ⟨1, _⟩ => show o + 1 * u.val = c.val; omega))

/-- The stored value at an index: each weight is a `[128, 1]` column widened and broadcast along the lanes, each
    stream arrives widened, and the additions run left to right from the start value. -/
theorem pay1_apply (v2 v5 v8 v11 v201 : FVec Ideal S128x3584 .f32) (v203 : FVec Ideal S128x1 .bf16)
    (v208 v214 v220 : Vec Ideal S128x1 .bf16) (p : Fin 128) (h : Fin 3584) :
    k0_pay1 v2 v5 v8 v11 v201 v203 v208 v214 v220 (ix2 p h)
      = (((v201 (ix2 p h) + v203 (ix2 p (0 : Fin 1)) * v2 (ix2 p h)) + v208 (ix2 p (0 : Fin 1)) * v5 (ix2 p h))
          + v214 (ix2 p (0 : Fin 1)) * v8 (ix2 p h)) + v220 (ix2 p (0 : Fin 1)) * v11 (ix2 p h) := by
  unfold k0_pay1
  simp only [truncf_apply, addf_apply, mulf_apply, extf_apply, shapeCast_self, Cert.LibKeepdims.broadcastTo_a1_ab_apply]

/-- The zero offsets of a whole-block access, as the constant function. -/
theorem zeros2 : (![0, 0] : Fin 2 → Nat) = fun _ => 0 := funext fun a => by fin_cases a <;> rfl

end BlockSub

open BlockSub in
/-- What the body leaves in the block of the single stream's gradient: every row's weighted sum of the four streams
    of the incoming gradient, the weights the row's 4-vector. -/
theorem out8_eq (x0 : Vec Ideal S128x16 .bf16) (x1 : Vec Ideal S128x4 .bf16) (x2 : Vec Ideal S128x14336 .bf16)
    (x3 : Vec Ideal S128x3584 .bf16) (x4 : Vec Ideal S128x14336 .bf16) :
    out0_8 (F := Ideal) x0 x1 x2 x3 x4 = Cert.MixGrad.subgradRows (n := 128) x1 x4 := by
  funext j
  obtain ⟨p, h, rfl⟩ : ∃ (p : Fin 128) (h : Fin 3584), j = ix2 p h := ⟨j 0, j 1, eq_ix2 j⟩
  unfold Gen.out0_8
  -- one store over the whole block leaves its value
  rw [View.canon_unit_zero (S := S128x3584) zeros2]
  rw [pay1_apply, Cert.MixGrad.subgradRows_apply]
  unfold k0_pay2 k0_pay3 k0_pay4 k0_pay5 k0_pay27 k0_pay28 Cert.MixGrad.mixVector
  simp only [extf_apply, shapeCast_self, broadcast_apply]
  rw [Fin.sum_univ_four]
  show Ideal.ofBits .f32 0x00000000#32 + _ * _ + _ * _ + _ * _ + _ * _ = _
  -- the start value is 0; each column load reads its entry of the 4-vector, each lane-range load its stream
  rw [Ideal.ofBits_zero_f32, zero_add,
    ld_col x1 0 _ p 0 0 rfl, ld_col x1 1 _ p 0 1 rfl, ld_col x1 2 _ p 0 2 rfl, ld_col x1 3 _ p 0 3 rfl,
    ld_lanes x4 0 _ p h (Cert.MixGrad.lane 0 h) (by show 0 * 3584 + h.val = 0 + h.val; omega),
    ld_lanes x4 3584 _ p h (Cert.MixGrad.lane 1 h) (by show 1 * 3584 + h.val = 3584 + h.val; omega),
    ld_lanes x4 7168 _ p h (Cert.MixGrad.lane 2 h) (by show 2 * 3584 + h.val = 7168 + h.val; omega),
    ld_lanes x4 10752 _ p h (Cert.MixGrad.lane 3 h) (by show 3 * 3584 + h.val = 10752 + h.val; omega)]

end Cert.KernelIdeal.Blocks

end
-- ==== Proof.Reshape.lean ====
/-
  The (sequence, batch) axes merged into one row axis, and split again.

  Merging the two leading axes of a row-major array leaves every element at its row-major position, so the merged array
  at row `s * 2 + b` reads the original at `(s, b)`, the trailing coordinates unchanged; where the trailing axes are
  merged too — a 4×4 matrix into sixteen entries, a 4×1 column into four — entry `(r, q)` sits at `r * 4 + q`.
  Each statement reads a `shapeCast` at an index; all are general in the element type.
-/
import Idealize.ShloMosaic.Lib.Pipeline.Value
import Idealize.ShloMosaic.Lib.ValueIdx
import proofs.«103172_j56564719288437_2_alg».proof.Proof.Spec

noncomputable section

namespace Cert.MixGrad

open Idealize.ShloMosaic Idealize.ShloMosaic.ValueIdx

variable {α : Type}

/-- The merged row of sequence position `s` and batch element `b`. -/
abbrev row (s : Fin 2048) (b : Fin 2) : Fin 4096 :=
  ⟨s.val * 2 + b.val, by have := s.isLt; have := b.isLt; omega⟩

/-- (sequence, batch, c) merged to (row, c), read at a row. -/
theorem merge3_apply {c : Nat} (a : (⟨3, ![2048, 2, c]⟩ : Shape).Idx → α)
    (h : (⟨3, ![2048, 2, c]⟩ : Shape).ShapeCasts ⟨2, ![4096, c]⟩) (s : Fin 2048) (b : Fin 2) (j : Fin c) :
    shapeCast ⟨2, ![4096, c]⟩ a h (ix2 (row s b) j) = a (ix3 s b j) :=
  shapeCast_apply a h _ _ (by
    rw [Shape.rowMajor_val_three, Shape.rowMajor_val_two]
    show (s.val * 2 + b.val) * c + j.val = (s.val * 2 + b.val) * c + j.val
    rfl)

/-- (sequence, batch, 4, 4) merged to (row, 16): entry `(r, q)` at column `r * 4 + q`. -/
theorem merge44_apply (a : (⟨4, ![2048, 2, 4, 4]⟩ : Shape).Idx → α)
    (h : (⟨4, ![2048, 2, 4, 4]⟩ : Shape).ShapeCasts ⟨2, ![4096, 16]⟩) (s : Fin 2048) (b : Fin 2) (r q : Fin 4) :
    shapeCast ⟨2, ![4096, 16]⟩ a h (ix2 (row s b) (cell r q)) = a (ix4 s b r q) :=
  shapeCast_apply a h _ _ (by
    rw [Shape.rowMajor_val_four, Shape.rowMajor_val_two]
    show ((s.val * 2 + b.val) * 4 + r.val) * 4 + q.val = (s.val * 2 + b.val) * 16 + (r.val * 4 + q.val)
    omega)

/-- (sequence, batch, 4, 1) merged to (row, 4). -/
theorem merge41_apply (a : (⟨4, ![2048, 2, 4, 1]⟩ : Shape).Idx → α)
    (h : (⟨4, ![2048, 2, 4, 1]⟩ : Shape).ShapeCasts ⟨2, ![4096, 4]⟩) (s : Fin 2048) (b : Fin 2) (r : Fin 4) :
    shapeCast ⟨2, ![4096, 4]⟩ a h (ix2 (row s b) r) = a (ix4 s b r (0 : Fin 1)) :=
  shapeCast_apply a h _ _ (by
    rw [Shape.rowMajor_val_four, Shape.rowMajor_val_two]
    show ((s.val * 2 + b.val) * 4 + r.val) * 1 + (0 : Fin 1).val = (s.val * 2 + b.val) * 4 + r.val
    show ((s.val * 2 + b.val) * 4 + r.val) * 1 + 0 = (s.val * 2 + b.val) * 4 + r.val
    omega)

/-- (row, c) split to (sequence, batch, c), read at `(s, b)`. -/
theorem split3_apply {c : Nat} (y : (⟨2, ![4096, c]⟩ : Shape).Idx → α)
    (h : (⟨2, ![4096, c]⟩ : Shape).ShapeCasts ⟨3, ![2048, 2, c]⟩) (s : Fin 2048) (b : Fin 2) (j : Fin c) :
    shapeCast ⟨3, ![2048, 2, c]⟩ y h (ix3 s b j) = y (ix2 (row s b) j) :=
  shapeCast_apply y h _ _ (by
    rw [Shape.rowMajor_val_three, Shape.rowMajor_val_two]
    show (s.val * 2 + b.val) * c + j.val = (s.val * 2 + b.val) * c + j.val
    rfl)

/-- (row, 16) split to (sequence, batch, 4, 4). -/
theorem split44_apply (y : (⟨2, ![4096, 16]⟩ : Shape).Idx → α)
    (h : (⟨2, ![4096, 16]⟩ : Shape).ShapeCasts ⟨4, ![2048, 2, 4, 4]⟩) (s : Fin 2048) (b : Fin 2) (r q : Fin 4) :
    shapeCast ⟨4, ![2048, 2, 4, 4]⟩ y h (ix4 s b r q) = y (ix2 (row s b) (cell r q)) :=
  shapeCast_apply y h _ _ (by
    rw [Shape.rowMajor_val_four, Shape.rowMajor_val_two]
    show (s.val * 2 + b.val) * 16 + (r.val * 4 + q.val) = ((s.val * 2 + b.val) * 4 + r.val) * 4 + q.val
    omega)

/-- (row, 4) split to (sequence, batch, 4, 1). -/
theorem split41_apply (y : (⟨2, ![4096, 4]⟩ : Shape).Idx → α)
    (h : (⟨2, ![4096, 4]⟩ : Shape).ShapeCasts ⟨4, ![2048, 2, 4, 1]⟩) (s : Fin 2048) (b : Fin 2) (r : Fin 4) (u : Fin 1) :
    shapeCast ⟨4, ![2048, 2, 4, 1]⟩ y h (ix4 s b r u) = y (ix2 (row s b) r) :=
  shapeCast_apply y h _ _ (by
    have hu : u.val = 0 := by omega
    rw [Shape.rowMajor_val_four, Shape.rowMajor_val_two]
    show (s.val * 2 + b.val) * 4 + r.val = ((s.val * 2 + b.val) * 4 + r.val) * 1 + u.val
    omega)

end Cert.MixGrad

end
-- ==== Proof.FlatSpec.lean ====
/-
  The row-by-row gradients of the merged arrays, split back into (sequence, batch, …), are the gradients over the
  arrays' own shapes.

  Merging (sequence, batch) into rows and splitting the result again moves no element (`merge…_apply`, `split…_apply`),
  and each row function reads only its own row, so row `s * 2 + b` of the merged computation is position `(s, b)` of the
  four- and three-axis one: the same finite sum, term by term.
-/
import proofs.«103172_j56564719288437_2_alg».proof.Proof.Spec
import proofs.«103172_j56564719288437_2_alg».proof.Proof.Reshape

noncomputable section

namespace Cert.MixGrad

open Idealize.ShloMosaic Idealize.ShloMosaic.ValueIdx

/-- d h_res: sixteen inner products per merged row, split to (sequence, batch, 4, 4). -/
theorem split_hresRows (x g : Streams)
    (hx : (⟨3, ![2048, 2, 14336]⟩ : Shape).ShapeCasts ⟨2, ![4096, 14336]⟩)
    (ho : (⟨2, ![4096, 16]⟩ : Shape).ShapeCasts ⟨4, ![2048, 2, 4, 4]⟩) :
    shapeCast ⟨4, ![2048, 2, 4, 4]⟩
      (hresRows (n := 4096) (shapeCast ⟨2, ![4096, 14336]⟩ x hx) (shapeCast ⟨2, ![4096, 14336]⟩ g hx)) ho
      = gradHRes x g := by
  funext i
  obtain ⟨s, b, r, q, rfl⟩ : ∃ (s : Fin 2048) (b : Fin 2) (r : Fin 4) (q : Fin 4), i = ix4 s b r q :=
    ⟨i 0, i 1, i 2, i 3, eq_ix4 i⟩
  rw [split44_apply, hresRows_apply]
  unfold dotStreams
  refine Finset.sum_congr rfl fun h _ => ?_
  rw [merge3_apply, merge3_apply]

/-- d h_post: four inner products per merged row, split to (sequence, batch, 4, 1). -/
theorem split_hpostRows (sub : Single) (g : Streams)
    (hs : (⟨3, ![2048, 2, 3584]⟩ : Shape).ShapeCasts ⟨2, ![4096, 3584]⟩)
    (hg : (⟨3, ![2048, 2, 14336]⟩ : Shape).ShapeCasts ⟨2, ![4096, 14336]⟩)
    (ho : (⟨2, ![4096, 4]⟩ : Shape).ShapeCasts ⟨4, ![2048, 2, 4, 1]⟩) :
    shapeCast ⟨4, ![2048, 2, 4, 1]⟩
      (hpostRows (n := 4096) (shapeCast ⟨2, ![4096, 3584]⟩ sub hs) (shapeCast ⟨2, ![4096, 14336]⟩ g hg)) ho
      = gradHPost sub g := by
  funext i
  obtain ⟨s, b, r, u, rfl⟩ : ∃ (s : Fin 2048) (b : Fin 2) (r : Fin 4) (u : Fin 1), i = ix4 s b r u :=
    ⟨i 0, i 1, i 2, i 3, eq_ix4 i⟩
  rw [split41_apply, hpostRows_apply]
  unfold dotSingle
  refine Finset.sum_congr rfl fun h _ => ?_
  rw [merge3_apply, merge3_apply]

/-- d x: the mixed streams of every merged row, split to (sequence, batch, 4 · 3584). -/
theorem split_xgradRows (hres : Mixes) (g : Streams)
    (hc : (⟨4, ![2048, 2, 4, 4]⟩ : Shape).ShapeCasts ⟨2, ![4096, 16]⟩)
    (hg : (⟨3, ![2048, 2, 14336]⟩ : Shape).ShapeCasts ⟨2, ![4096, 14336]⟩)
    (ho : (⟨2, ![4096, 14336]⟩ : Shape).ShapeCasts ⟨3, ![2048, 2, 14336]⟩) :
    shapeCast ⟨3, ![2048, 2, 14336]⟩
      (xgradRows (n := 4096) (shapeCast ⟨2, ![4096, 16]⟩ hres hc) (shapeCast ⟨2, ![4096, 14336]⟩ g hg)) ho
      = gradX hres g := by
  funext i
  obtain ⟨s, b, j, rfl⟩ : ∃ (s : Fin 2048) (b : Fin 2) (j : Fin 14336), i = ix3 s b j :=
    ⟨i 0, i 1, i 2, eq_ix3 i⟩
  rw [split3_apply]
  show mixColumn _ _ (row s b) ⟨j.val / 3584, _⟩ ⟨j.val % 3584, _⟩ = _
  unfold mixColumn
  refine Finset.sum_congr rfl fun r _ => ?_
  rw [merge44_apply, merge3_apply]

/-- d sub: the weighted sum of streams of every merged row, split to (sequence, batch, 3584). -/
theorem split_subgradRows (hpost : Weights) (g : Streams)
    (hc : (⟨4, ![2048, 2, 4, 1]⟩ : Shape).ShapeCasts ⟨2, ![4096, 4]⟩)
    (hg : (⟨3, ![2048, 2, 14336]⟩ : Shape).ShapeCasts ⟨2, ![4096, 14336]⟩)
    (ho : (⟨2, ![4096, 3584]⟩ : Shape).ShapeCasts ⟨3, ![2048, 2, 3584]⟩) :
    shapeCast ⟨3, ![2048, 2, 3584]⟩
      (subgradRows (n := 4096) (shapeCast ⟨2, ![4096, 4]⟩ hpost hc) (shapeCast ⟨2, ![4096, 14336]⟩ g hg)) ho
      = gradSub hpost g := by
  funext i
  obtain ⟨s, b, h, rfl⟩ : ∃ (s : Fin 2048) (b : Fin 2) (h : Fin 3584), i = ix3 s b h :=
    ⟨i 0, i 1, i 2, eq_ix3 i⟩
  rw [split3_apply, subgradRows_apply]
  unfold mixVector
  refine Finset.sum_congr rfl fun r _ => ?_
  rw [merge41_apply, merge3_apply]

end Cert.MixGrad

end
-- ==== Proof.RowLocal.lean ====
/-
  Every gradient is computed row by row: an entry of the result in row `p` reads the operands in row `p` only. So two
  families of operands that agree on a pair of rows — a block of rows cut out of a taller array, and that array — give
  results that agree on that pair of rows, at every column.
-/
import proofs.«103172_j56564719288437_2_alg».proof.Proof.Spec

noncomputable section

namespace Cert.MixGrad

open Idealize.ShloMosaic Idealize.ShloMosaic.ValueIdx

theorem hresRows_congr {n n' : Nat} (X G : Mat n 14336) (X' G' : Mat n' 14336)
    (j : (⟨2, ![n, 16]⟩ : Shape).Idx) (j' : (⟨2, ![n', 16]⟩ : Shape).Idx)
    (hc : (j 1 : Fin 16).val = (j' 1 : Fin 16).val)
    (hX : ∀ k : Fin 14336, X (ix2 (j 0 : Fin n) k) = X' (ix2 (j' 0 : Fin n') k))
    (hG : ∀ k : Fin 14336, G (ix2 (j 0 : Fin n) k) = G' (ix2 (j' 0 : Fin n') k)) :
    hresRows X G j = hresRows X' G' j' := by
  have e1 : (⟨(j 1 : Fin 16).val / 4, by have h : (j 1 : Fin 16).val < 16 := (j 1 : Fin 16).isLt; omega⟩ : Fin 4)
      = ⟨(j' 1 : Fin 16).val / 4, by have h : (j' 1 : Fin 16).val < 16 := (j' 1 : Fin 16).isLt; omega⟩ :=
    Fin.ext (by show (j 1 : Fin 16).val / 4 = (j' 1 : Fin 16).val / 4; rw [hc])
  have e2 : (⟨(j 1 : Fin 16).val % 4, Nat.mod_lt _ (by decide)⟩ : Fin 4)
      = ⟨(j' 1 : Fin 16).val % 4, Nat.mod_lt _ (by decide)⟩ :=
    Fin.ext (by show (j 1 : Fin 16).val % 4 = (j' 1 : Fin 16).val % 4; rw [hc])
  unfold hresRows
  rw [e1, e2]
  unfold dotStreams
  exact Finset.sum_congr rfl fun h _ => by rw [hX, hG]

theorem hpostRows_congr {n n' : Nat} (S : Mat n 3584) (G : Mat n 14336) (S' : Mat n' 3584) (G' : Mat n' 14336)
    (j : (⟨2, ![n, 4]⟩ : Shape).Idx) (j' : (⟨2, ![n', 4]⟩ : Shape).Idx)
    (hc : (j 1 : Fin 4) = (j' 1 : Fin 4))
    (hS : ∀ k : Fin 3584, S (ix2 (j 0 : Fin n) k) = S' (ix2 (j' 0 : Fin n') k))
    (hG : ∀ k : Fin 14336, G (ix2 (j 0 : Fin n) k) = G' (ix2 (j' 0 : Fin n') k)) :
    hpostRows S G j = hpostRows S' G' j' := by
  unfold hpostRows
  rw [hc]
  unfold dotSingle
  exact Finset.sum_congr rfl fun h _ => by rw [hS, hG]

theorem xgradRows_congr {n n' : Nat} (C : Mat n 16) (G : Mat n 14336) (C' : Mat n' 16) (G' : Mat n' 14336)
    (j : (⟨2, ![n, 14336]⟩ : Shape).Idx) (j' : (⟨2, ![n', 14336]⟩ : Shape).Idx)
    (hc : (j 1 : Fin 14336).val = (j' 1 : Fin 14336).val)
    (hC : ∀ k : Fin 16, C (ix2 (j 0 : Fin n) k) = C' (ix2 (j' 0 : Fin n') k))
    (hG : ∀ k : Fin 14336, G (ix2 (j 0 : Fin n) k) = G' (ix2 (j' 0 : Fin n') k)) :
    xgradRows C G j = xgradRows C' G' j' := by
  have e1 : (⟨(j 1 : Fin 14336).val / 3584, by have h : (j 1 : Fin 14336).val < 14336 := (j 1 : Fin 14336).isLt; omega⟩ : Fin 4)
      = ⟨(j' 1 : Fin 14336).val / 3584, by have h : (j' 1 : Fin 14336).val < 14336 := (j' 1 : Fin 14336).isLt; omega⟩ :=
    Fin.ext (by show (j 1 : Fin 14336).val / 3584 = (j' 1 : Fin 14336).val / 3584; rw [hc])
  have e2 : (⟨(j 1 : Fin 14336).val % 3584, Nat.mod_lt _ (by decide)⟩ : Fin 3584)
      = ⟨(j' 1 : Fin 14336).val % 3584, Nat.mod_lt _ (by decide)⟩ :=
    Fin.ext (by show (j 1 : Fin 14336).val % 3584 = (j' 1 : Fin 14336).val % 3584; rw [hc])
  unfold xgradRows
  rw [e1, e2]
  unfold mixColumn
  exact Finset.sum_congr rfl fun r _ => by rw [hC, hG]

theorem subgradRows_congr {n n' : Nat} (C : Mat n 4) (G : Mat n 14336) (C' : Mat n' 4) (G' : Mat n' 14336)
    (j : (⟨2, ![n, 3584]⟩ : Shape).Idx) (j' : (⟨2, ![n', 3584]⟩ : Shape).Idx)
    (hc : (j 1 : Fin 3584) = (j' 1 : Fin 3584))
    (hC : ∀ k : Fin 4, C (ix2 (j 0 : Fin n) k) = C' (ix2 (j' 0 : Fin n') k))
    (hG : ∀ k : Fin 14336, G (ix2 (j 0 : Fin n) k) = G' (ix2 (j' 0 : Fin n') k)) :
    subgradRows C G j = subgradRows C' G' j' := by
  unfold subgradRows
  rw [hc]
  unfold mixVector
  exact Finset.sum_congr rfl fun r _ => by rw [hC, hG]

end Cert.MixGrad

end
-- ==== Proof.BlockRows.lean ====
/-
  Where the grid's blocks sit, and what an input block's rows are.

  The grid has 32 points. At point `t` every window — the five operands and the four results — is at block row `t` and
  block column 0: its block is rows `128 t … 128 t + 127` of its array, all columns. So row `p` of an operand's block at
  point `t` is row `128 t + p` of the operand as the region finds it.
-/
import proofs.«103172_j56564719288437_2_alg».proof.Proof.Gen.KernelIdeal.Frame
import proofs.«103172_j56564719288437_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.MixGrad

variable (m : (ℓ : Loc nD τ sig) → Buf (Elt Ideal) ℓ)

/-- Every window's block at point `t` is at block row `t`, block column 0. -/
theorem blockIndex_0 : ∀ t : Fin cfg0.N, win0_0.index t (0 : Fin 2) = t.val ∧ win0_0.index t (1 : Fin 2) = 0 :=
  (by decide +kernel : ∀ t : Fin grid0.N, _)
theorem blockIndex_1 : ∀ t : Fin cfg0.N, win0_1.index t (0 : Fin 2) = t.val ∧ win0_1.index t (1 : Fin 2) = 0 :=
  (by decide +kernel : ∀ t : Fin grid0.N, _)
theorem blockIndex_2 : ∀ t : Fin cfg0.N, win0_2.index t (0 : Fin 2) = t.val ∧ win0_2.index t (1 : Fin 2) = 0 :=
  (by decide +kernel : ∀ t : Fin grid0.N, _)
theorem blockIndex_3 : ∀ t : Fin cfg0.N, win0_3.index t (0 : Fin 2) = t.val ∧ win0_3.index t (1 : Fin 2) = 0 :=
  (by decide +kernel : ∀ t : Fin grid0.N, _)
theorem blockIndex_4 : ∀ t : Fin cfg0.N, win0_4.index t (0 : Fin 2) = t.val ∧ win0_4.index t (1 : Fin 2) = 0 :=
  (by decide +kernel : ∀ t : Fin grid0.N, _)
theorem blockIndex_5 : ∀ t : Fin cfg0.N, win0_5.index t (0 : Fin 2) = t.val ∧ win0_5.index t (1 : Fin 2) = 0 :=
  (by decide +kernel : ∀ t : Fin grid0.N, _)
theorem blockIndex_6 : ∀ t : Fin cfg0.N, win0_6.index t (0 : Fin 2) = t.val ∧ win0_6.index t (1 : Fin 2) = 0 :=
  (by decide +kernel : ∀ t : Fin grid0.N, _)
theorem blockIndex_7 : ∀ t : Fin cfg0.N, win0_7.index t (0 : Fin 2) = t.val ∧ win0_7.index t (1 : Fin 2) = 0 :=
  (by decide +kernel : ∀ t : Fin grid0.N, _)
theorem blockIndex_8 : ∀ t : Fin cfg0.N, win0_8.index t (0 : Fin 2) = t.val ∧ win0_8.index t (1 : Fin 2) = 0 :=
  (by decide +kernel : ∀ t : Fin grid0.N, _)

/-- Row `p` of point `t`'s block of operand 0 is row `128 t + p` of its array. -/
theorem iblk0_row (c : Dev nD) (t : Fin cfg0.N) (p : Fin 128) (P : Fin 4096) (hP : P.val = t.val * 128 + p.val)
    (k : Fin 16) :
    (iblk m c 0 t : Vec Ideal S128x16 .bf16) (ix2 p k) = (V m c main_v0 : S4096x16.Idx → EReal) (ix2 P k) := by
  have e0 := (blockIndex_0 t).1
  have e1 := (blockIndex_0 t).2
  unfold iblk
  rw [View.read_apply]
  show V m c main_v0 _ = V m c main_v0 _
  refine congrArg (V m c main_v0) (funext fun a => Fin.ext ?_)
  match a with
  | ⟨0, _⟩ => show win0_0.index t (0 : Fin 2) * 128 + 1 * p.val = P.val; rw [show win0_0.index t (0 : Fin 2) = t.val from e0, hP]; omega
  | ⟨1, _⟩ => show win0_0.index t (1 : Fin 2) * 16 + 1 * k.val = k.val; rw [show win0_0.index t (1 : Fin 2) = 0 from e1]; omega

/-- Row `p` of point `t`'s block of operand 1 is row `128 t + p` of its array. -/
theorem iblk1_row (c : Dev nD) (t : Fin cfg0.N) (p : Fin 128) (P : Fin 4096) (hP : P.val = t.val * 128 + p.val)
    (k : Fin 4) :
    (iblk m c 1 t : Vec Ideal S128x4 .bf16) (ix2 p k) = (V m c main_v1 : S4096x4.Idx → EReal) (ix2 P k) := by
  have e0 := (blockIndex_1 t).1
  have e1 := (blockIndex_1 t).2
  unfold iblk
  rw [View.read_apply]
  show V m c main_v1 _ = V m c main_v1 _
  refine congrArg (V m c main_v1) (funext fun a => Fin.ext ?_)
  match a with
  | ⟨0, _⟩ => show win0_1.index t (0 : Fin 2) * 128 + 1 * p.val = P.val; rw [show win0_1.index t (0 : Fin 2) = t.val from e0, hP]; omega
  | ⟨1, _⟩ => show win0_1.index t (1 : Fin 2) * 4 + 1 * k.val = k.val; rw [show win0_1.index t (1 : Fin 2) = 0 from e1]; omega

/-- Row `p` of point `t`'s block of operand 2 is row `128 t + p` of its array. -/
theorem iblk2_row (c : Dev nD) (t : Fin cfg0.N) (p : Fin 128) (P : Fin 4096) (hP : P.val = t.val * 128 + p.val)
    (k : Fin 14336) :
    (iblk m c 2 t : Vec Ideal S128x14336 .bf16) (ix2 p k) = (V m c main_v2 : S4096x14336.Idx → EReal) (ix2 P k) := by
  have e0 := (blockIndex_2 t).1
  have e1 := (blockIndex_2 t).2
  unfold iblk
  rw [View.read_apply]
  show V m c main_v2 _ = V m c main_v2 _
  refine congrArg (V m c main_v2) (funext fun a => Fin.ext ?_)
  match a with
  | ⟨0, _⟩ => show win0_2.index t (0 : Fin 2) * 128 + 1 * p.val = P.val; rw [show win0_2.index t (0 : Fin 2) = t.val from e0, hP]; omega
  | ⟨1, _⟩ => show win0_2.index t (1 : Fin 2) * 14336 + 1 * k.val = k.val; rw [show win0_2.index t (1 : Fin 2) = 0 from e1]; omega

/-- Row `p` of point `t`'s block of operand 3 is row `128 t + p` of its array. -/
theorem iblk3_row (c : Dev nD) (t : Fin cfg0.N) (p : Fin 128) (P : Fin 4096) (hP : P.val = t.val * 128 + p.val)
    (k : Fin 3584) :
    (iblk m c 3 t : Vec Ideal S128x3584 .bf16) (ix2 p k) = (V m c main_v4 : S4096x3584.Idx → EReal) (ix2 P k) := by
  have e0 := (blockIndex_3 t).1
  have e1 := (blockIndex_3 t).2
  unfold iblk
  rw [View.read_apply]
  show V m c main_v4 _ = V m c main_v4 _
  refine congrArg (V m c main_v4) (funext fun a => Fin.ext ?_)
  match a with
  | ⟨0, _⟩ => show win0_3.index t (0 : Fin 2) * 128 + 1 * p.val = P.val; rw [show win0_3.index t (0 : Fin 2) = t.val from e0, hP]; omega
  | ⟨1, _⟩ => show win0_3.index t (1 : Fin 2) * 3584 + 1 * k.val = k.val; rw [show win0_3.index t (1 : Fin 2) = 0 from e1]; omega

/-- Row `p` of point `t`'s block of operand 4 is row `128 t + p` of its array. -/
theorem iblk4_row (c : Dev nD) (t : Fin cfg0.N) (p : Fin 128) (P : Fin 4096) (hP : P.val = t.val * 128 + p.val)
    (k : Fin 14336) :
    (iblk m c 4 t : Vec Ideal S128x14336 .bf16) (ix2 p k) = (V m c main_v3 : S4096x14336.Idx → EReal) (ix2 P k) := by
  have e0 := (blockIndex_4 t).1
  have e1 := (blockIndex_4 t).2
  unfold iblk
  rw [View.read_apply]
  show V m c main_v3 _ = V m c main_v3 _
  refine congrArg (V m c main_v3) (funext fun a => Fin.ext ?_)
  match a with
  | ⟨0, _⟩ => show win0_4.index t (0 : Fin 2) * 128 + 1 * p.val = P.val; rw [show win0_4.index t (0 : Fin 2) = t.val from e0, hP]; omega
  | ⟨1, _⟩ => show win0_4.index t (1 : Fin 2) * 14336 + 1 * k.val = k.val; rw [show win0_4.index t (1 : Fin 2) = 0 from e1]; omega

end Cert.KernelIdeal.Arrays

end
-- ==== Proof.ArrHRes.lean ====
/-
  The h_res gradient over the whole merged array.

  Point `t` of the grid works on rows `128 t … 128 t + 127` of every operand and writes those rows of the result, all
  sixteen columns. The body leaves in its output block the sixteen inner products of each of its rows (the hypothesis
  `hblk`); a row's inner products read that row only, so the block is rows `128 t …` of the same function of the whole
  arrays, and the 32 blocks tile the array.
-/
import proofs.«103172_j56564719288437_2_alg».proof.Proof.Gen.KernelIdeal.Frame
import proofs.«103172_j56564719288437_2_alg».proof.Proof.Spec
import proofs.«103172_j56564719288437_2_alg».proof.Proof.RowLocal
import proofs.«103172_j56564719288437_2_alg».proof.Proof.BlockRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.MixGrad

variable (m : (ℓ : Loc nD τ sig) → Buf (Elt Ideal) ℓ)

/-- What point `t` writes back is block `t` of the sixteen inner products of every row of the whole arrays. -/
theorem flushed5_eq
    (hblk : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_5 (F := Ideal) x0 x1 x2 x3 x4 = hresRows (n := 128) x2 x4)
    (c : Dev nD) (t : Fin cfg0.N) :
    (dats m 0 c).flushed 5 t = ((cfg0.win 5).blk t).view.read (Elt Ideal)
      (hresRows (n := 4096) (V m c main_v2) (V m c main_v3)) := by
  have e0 : win0_5.index t (0 : Fin 2) = t.val := (blockIndex_5 t).1
  have e1 : win0_5.index t (1 : Fin 2) = 0 := (blockIndex_5 t).2
  show (cfg0.win 5).cut (grid0.coords t) ((dats m 0 c).after 5 t) = _
  rw [after0_5, hblk]
  funext j
  show hresRows (n := 128) (iblk m c 2 t) (iblk m c 4 t) j
    = hresRows (n := 4096) (V m c main_v2) (V m c main_v3) (((cfg0.win 5).blk t).view.emb j)
  have hrow : ((((cfg0.win 5).blk t).view.emb j) 0 : Fin 4096).val = t.val * 128 + (j 0 : Fin 128).val := by
    show win0_5.index t (0 : Fin 2) * 128 + 1 * (j 0 : Fin 128).val = _; rw [e0]; omega
  refine hresRows_congr _ _ _ _ j (((cfg0.win 5).blk t).view.emb j) ?_ (fun k => ?_) (fun k => ?_)
  · show (j 1 : Fin 16).val = win0_5.index t (1 : Fin 2) * 16 + 1 * (j 1 : Fin 16).val; rw [e1]; omega
  · exact iblk2_row m c t _ _ hrow k
  · exact iblk4_row m c t _ _ hrow k

/-- Every row of the result lies in the block of the point that works on it. -/
theorem cover5 (c : Dev nD) (i : S4096x16.Idx) :
    ∃ t : Fin cfg0.N, (cfg0.win 5).flush t = true ∧ i ∈ ((cfg0.win 5).blk t).view.set := by
  have hN : cfg0.N = 32 := N_0
  have hi0 : (i 0 : Fin 4096).val < 4096 := (i 0 : Fin 4096).isLt
  have hi1 : (i 1 : Fin 16).val < 16 := (i 1 : Fin 16).isLt
  have ht : (i 0 : Fin 4096).val / 128 < cfg0.N := by rw [hN]; omega
  refine ⟨⟨(i 0 : Fin 4096).val / 128, ht⟩, flush0_5 _, ?_⟩
  have e0 : win0_5.index ⟨(i 0 : Fin 4096).val / 128, ht⟩ (0 : Fin 2) = (i 0 : Fin 4096).val / 128 :=
    (blockIndex_5 ⟨(i 0 : Fin 4096).val / 128, ht⟩).1
  have e1 : win0_5.index ⟨(i 0 : Fin 4096).val / 128, ht⟩ (1 : Fin 2) = 0 :=
    (blockIndex_5 ⟨(i 0 : Fin 4096).val / 128, ht⟩).2
  show i ∈ ((View.whole main_v5_0).slice (win0_5.rect ⟨(i 0 : Fin 4096).val / 128, ht⟩)).set
  rw [View.set_slice_whole, Rect.mem_set_unit]
  intro a
  match a with
  | ⟨0, _⟩ =>
    show win0_5.index ⟨(i 0 : Fin 4096).val / 128, ht⟩ (0 : Fin 2) * 128 ≤ (i 0 : Fin 4096).val
      ∧ (i 0 : Fin 4096).val < win0_5.index ⟨(i 0 : Fin 4096).val / 128, ht⟩ (0 : Fin 2) * 128 + 128
    rw [e0]; omega
  | ⟨1, _⟩ =>
    show win0_5.index ⟨(i 0 : Fin 4096).val / 128, ht⟩ (1 : Fin 2) * 16 ≤ (i 1 : Fin 16).val
      ∧ (i 1 : Fin 16).val < win0_5.index ⟨(i 0 : Fin 4096).val / 128, ht⟩ (1 : Fin 2) * 16 + 16
    rw [e1]; omega

/-- The result array after the run: the sixteen inner products of every row of the merged arrays. -/
theorem final5
    (hblk : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_5 (F := Ideal) x0 x1 x2 x3 x4 = hresRows (n := 128) x2 x4)
    (c : Dev nD) :
    (dats m 0 c).arrAt 5 cfg0.N = hresRows (n := 4096) (V m c main_v2) (V m c main_v3) :=
  (dats m 0 c).arrAt_eq_of_cover 5 _ (fun t _ => flushed5_eq m hblk c t) (cover5 c)

end Cert.KernelIdeal.Arrays

end
-- ==== Proof.ArrHPost.lean ====
/-
  The h_post gradient over the whole merged array.

  Point `t` writes rows `128 t … 128 t + 127` of the result, all four columns: in each row the inner products of the four
  streams of the gradient with the single stream (the hypothesis `hblk`). A row's entries read that row only, so the block
  is rows `128 t …` of the same function of the whole arrays, and the 32 blocks tile the array.
-/
import proofs.«103172_j56564719288437_2_alg».proof.Proof.Gen.KernelIdeal.Frame
import proofs.«103172_j56564719288437_2_alg».proof.Proof.Spec
import proofs.«103172_j56564719288437_2_alg».proof.Proof.RowLocal
import proofs.«103172_j56564719288437_2_alg».proof.Proof.BlockRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.MixGrad

variable (m : (ℓ : Loc nD τ sig) → Buf (Elt Ideal) ℓ)

/-- What point `t` writes back is block `t` of the four inner products with the single stream of every row of the whole arrays. -/
theorem flushed6_eq
    (hblk : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_6 (F := Ideal) x0 x1 x2 x3 x4 = hpostRows (n := 128) x3 x4)
    (c : Dev nD) (t : Fin cfg0.N) :
    (dats m 0 c).flushed 6 t = ((cfg0.win 6).blk t).view.read (Elt Ideal)
      (hpostRows (n := 4096) (V m c main_v4) (V m c main_v3)) := by
  have e0 : win0_6.index t (0 : Fin 2) = t.val := (blockIndex_6 t).1
  have e1 : win0_6.index t (1 : Fin 2) = 0 := (blockIndex_6 t).2
  show (cfg0.win 6).cut (grid0.coords t) ((dats m 0 c).after 6 t) = _
  rw [after0_6, hblk]
  funext j
  show hpostRows (n := 128) (iblk m c 3 t) (iblk m c 4 t) j
    = hpostRows (n := 4096) (V m c main_v4) (V m c main_v3) (((cfg0.win 6).blk t).view.emb j)
  have hrow : ((((cfg0.win 6).blk t).view.emb j) 0 : Fin 4096).val = t.val * 128 + (j 0 : Fin 128).val := by
    show win0_6.index t (0 : Fin 2) * 128 + 1 * (j 0 : Fin 128).val = _; rw [e0]; omega
  refine hpostRows_congr _ _ _ _ j (((cfg0.win 6).blk t).view.emb j) ?_ (fun k => ?_) (fun k => ?_)
  · exact Fin.ext (by show (j 1 : Fin 4).val = win0_6.index t (1 : Fin 2) * 4 + 1 * (j 1 : Fin 4).val; rw [e1]; omega)
  · exact iblk3_row m c t _ _ hrow k
  · exact iblk4_row m c t _ _ hrow k

/-- Every row of the result lies in the block of the point that works on it. -/
theorem cover6 (c : Dev nD) (i : S4096x4.Idx) :
    ∃ t : Fin cfg0.N, (cfg0.win 6).flush t = true ∧ i ∈ ((cfg0.win 6).blk t).view.set := by
  have hN : cfg0.N = 32 := N_0
  have hi0 : (i 0 : Fin 4096).val < 4096 := (i 0 : Fin 4096).isLt
  have hi1 : (i 1 : Fin 4).val < 4 := (i 1 : Fin 4).isLt
  have ht : (i 0 : Fin 4096).val / 128 < cfg0.N := by rw [hN]; omega
  refine ⟨⟨(i 0 : Fin 4096).val / 128, ht⟩, flush0_6 _, ?_⟩
  have e0 : win0_6.index ⟨(i 0 : Fin 4096).val / 128, ht⟩ (0 : Fin 2) = (i 0 : Fin 4096).val / 128 :=
    (blockIndex_6 ⟨(i 0 : Fin 4096).val / 128, ht⟩).1
  have e1 : win0_6.index ⟨(i 0 : Fin 4096).val / 128, ht⟩ (1 : Fin 2) = 0 :=
    (blockIndex_6 ⟨(i 0 : Fin 4096).val / 128, ht⟩).2
  show i ∈ ((View.whole main_v5_1).slice (win0_6.rect ⟨(i 0 : Fin 4096).val / 128, ht⟩)).set
  rw [View.set_slice_whole, Rect.mem_set_unit]
  intro a
  match a with
  | ⟨0, _⟩ =>
    show win0_6.index ⟨(i 0 : Fin 4096).val / 128, ht⟩ (0 : Fin 2) * 128 ≤ (i 0 : Fin 4096).val
      ∧ (i 0 : Fin 4096).val < win0_6.index ⟨(i 0 : Fin 4096).val / 128, ht⟩ (0 : Fin 2) * 128 + 128
    rw [e0]; omega
  | ⟨1, _⟩ =>
    show win0_6.index ⟨(i 0 : Fin 4096).val / 128, ht⟩ (1 : Fin 2) * 4 ≤ (i 1 : Fin 4).val
      ∧ (i 1 : Fin 4).val < win0_6.index ⟨(i 0 : Fin 4096).val / 128, ht⟩ (1 : Fin 2) * 4 + 4
    rw [e1]; omega

/-- The result array after the run: the four inner products with the single stream of every row of the merged arrays. -/
theorem final6
    (hblk : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_6 (F := Ideal) x0 x1 x2 x3 x4 = hpostRows (n := 128) x3 x4)
    (c : Dev nD) :
    (dats m 0 c).arrAt 6 cfg0.N = hpostRows (n := 4096) (V m c main_v4) (V m c main_v3) :=
  (dats m 0 c).arrAt_eq_of_cover 6 _ (fun t _ => flushed6_eq m hblk c t) (cover6 c)

end Cert.KernelIdeal.Arrays

end
-- ==== Proof.ArrX.lean ====
/-
  The gradient of the streams over the whole merged array.

  Point `t` writes rows `128 t … 128 t + 127` of the result, all 4 · 3584 lanes: in each row the gradient's streams mixed
  by the columns of that row's 4×4 matrix (the hypothesis `hblk`). A row's entries read that row only, so the block is rows
  `128 t …` of the same function of the whole arrays, and the 32 blocks tile the array.
-/
import proofs.«103172_j56564719288437_2_alg».proof.Proof.Gen.KernelIdeal.Frame
import proofs.«103172_j56564719288437_2_alg».proof.Proof.Spec
import proofs.«103172_j56564719288437_2_alg».proof.Proof.RowLocal
import proofs.«103172_j56564719288437_2_alg».proof.Proof.BlockRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.MixGrad

variable (m : (ℓ : Loc nD τ sig) → Buf (Elt Ideal) ℓ)

/-- What point `t` writes back is block `t` of the mixed streams of every row of the whole arrays. -/
theorem flushed7_eq
    (hblk : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_7 (F := Ideal) x0 x1 x2 x3 x4 = xgradRows (n := 128) x0 x4)
    (c : Dev nD) (t : Fin cfg0.N) :
    (dats m 0 c).flushed 7 t = ((cfg0.win 7).blk t).view.read (Elt Ideal)
      (xgradRows (n := 4096) (V m c main_v0) (V m c main_v3)) := by
  have e0 : win0_7.index t (0 : Fin 2) = t.val := (blockIndex_7 t).1
  have e1 : win0_7.index t (1 : Fin 2) = 0 := (blockIndex_7 t).2
  show (cfg0.win 7).cut (grid0.coords t) ((dats m 0 c).after 7 t) = _
  rw [after0_7, hblk]
  funext j
  show xgradRows (n := 128) (iblk m c 0 t) (iblk m c 4 t) j
    = xgradRows (n := 4096) (V m c main_v0) (V m c main_v3) (((cfg0.win 7).blk t).view.emb j)
  have hrow : ((((cfg0.win 7).blk t).view.emb j) 0 : Fin 4096).val = t.val * 128 + (j 0 : Fin 128).val := by
    show win0_7.index t (0 : Fin 2) * 128 + 1 * (j 0 : Fin 128).val = _; rw [e0]; omega
  refine xgradRows_congr _ _ _ _ j (((cfg0.win 7).blk t).view.emb j) ?_ (fun k => ?_) (fun k => ?_)
  · show (j 1 : Fin 14336).val = win0_7.index t (1 : Fin 2) * 14336 + 1 * (j 1 : Fin 14336).val; rw [e1]; omega
  · exact iblk0_row m c t _ _ hrow k
  · exact iblk4_row m c t _ _ hrow k

/-- Every row of the result lies in the block of the point that works on it. -/
theorem cover7 (c : Dev nD) (i : S4096x14336.Idx) :
    ∃ t : Fin cfg0.N, (cfg0.win 7).flush t = true ∧ i ∈ ((cfg0.win 7).blk t).view.set := by
  have hN : cfg0.N = 32 := N_0
  have hi0 : (i 0 : Fin 4096).val < 4096 := (i 0 : Fin 4096).isLt
  have hi1 : (i 1 : Fin 14336).val < 14336 := (i 1 : Fin 14336).isLt
  have ht : (i 0 : Fin 4096).val / 128 < cfg0.N := by rw [hN]; omega
  refine ⟨⟨(i 0 : Fin 4096).val / 128, ht⟩, flush0_7 _, ?_⟩
  have e0 : win0_7.index ⟨(i 0 : Fin 4096).val / 128, ht⟩ (0 : Fin 2) = (i 0 : Fin 4096).val / 128 :=
    (blockIndex_7 ⟨(i 0 : Fin 4096).val / 128, ht⟩).1
  have e1 : win0_7.index ⟨(i 0 : Fin 4096).val / 128, ht⟩ (1 : Fin 2) = 0 :=
    (blockIndex_7 ⟨(i 0 : Fin 4096).val / 128, ht⟩).2
  show i ∈ ((View.whole main_v5_2).slice (win0_7.rect ⟨(i 0 : Fin 4096).val / 128, ht⟩)).set
  rw [View.set_slice_whole, Rect.mem_set_unit]
  intro a
  match a with
  | ⟨0, _⟩ =>
    show win0_7.index ⟨(i 0 : Fin 4096).val / 128, ht⟩ (0 : Fin 2) * 128 ≤ (i 0 : Fin 4096).val
      ∧ (i 0 : Fin 4096).val < win0_7.index ⟨(i 0 : Fin 4096).val / 128, ht⟩ (0 : Fin 2) * 128 + 128
    rw [e0]; omega
  | ⟨1, _⟩ =>
    show win0_7.index ⟨(i 0 : Fin 4096).val / 128, ht⟩ (1 : Fin 2) * 14336 ≤ (i 1 : Fin 14336).val
      ∧ (i 1 : Fin 14336).val < win0_7.index ⟨(i 0 : Fin 4096).val / 128, ht⟩ (1 : Fin 2) * 14336 + 14336
    rw [e1]; omega

/-- The result array after the run: the mixed streams of every row of the merged arrays. -/
theorem final7
    (hblk : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_7 (F := Ideal) x0 x1 x2 x3 x4 = xgradRows (n := 128) x0 x4)
    (c : Dev nD) :
    (dats m 0 c).arrAt 7 cfg0.N = xgradRows (n := 4096) (V m c main_v0) (V m c main_v3) :=
  (dats m 0 c).arrAt_eq_of_cover 7 _ (fun t _ => flushed7_eq m hblk c t) (cover7 c)

end Cert.KernelIdeal.Arrays

end
-- ==== Proof.ArrSub.lean ====
/-
  The gradient of the single stream over the whole merged array.

  Point `t` writes rows `128 t … 128 t + 127` of the result, all 3584 lanes: in each row the gradient's streams weighted by
  that row's 4-vector and added (the hypothesis `hblk`). A row's entries read that row only, so the block is rows `128 t …`
  of the same function of the whole arrays, and the 32 blocks tile the array.
-/
import proofs.«103172_j56564719288437_2_alg».proof.Proof.Gen.KernelIdeal.Frame
import proofs.«103172_j56564719288437_2_alg».proof.Proof.Spec
import proofs.«103172_j56564719288437_2_alg».proof.Proof.RowLocal
import proofs.«103172_j56564719288437_2_alg».proof.Proof.BlockRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.MixGrad

variable (m : (ℓ : Loc nD τ sig) → Buf (Elt Ideal) ℓ)

/-- What point `t` writes back is block `t` of the weighted sum of streams of every row of the whole arrays. -/
theorem flushed8_eq
    (hblk : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_8 (F := Ideal) x0 x1 x2 x3 x4 = subgradRows (n := 128) x1 x4)
    (c : Dev nD) (t : Fin cfg0.N) :
    (dats m 0 c).flushed 8 t = ((cfg0.win 8).blk t).view.read (Elt Ideal)
      (subgradRows (n := 4096) (V m c main_v1) (V m c main_v3)) := by
  have e0 : win0_8.index t (0 : Fin 2) = t.val := (blockIndex_8 t).1
  have e1 : win0_8.index t (1 : Fin 2) = 0 := (blockIndex_8 t).2
  show (cfg0.win 8).cut (grid0.coords t) ((dats m 0 c).after 8 t) = _
  rw [after0_8, hblk]
  funext j
  show subgradRows (n := 128) (iblk m c 1 t) (iblk m c 4 t) j
    = subgradRows (n := 4096) (V m c main_v1) (V m c main_v3) (((cfg0.win 8).blk t).view.emb j)
  have hrow : ((((cfg0.win 8).blk t).view.emb j) 0 : Fin 4096).val = t.val * 128 + (j 0 : Fin 128).val := by
    show win0_8.index t (0 : Fin 2) * 128 + 1 * (j 0 : Fin 128).val = _; rw [e0]; omega
  refine subgradRows_congr _ _ _ _ j (((cfg0.win 8).blk t).view.emb j) ?_ (fun k => ?_) (fun k => ?_)
  · exact Fin.ext (by show (j 1 : Fin 3584).val = win0_8.index t (1 : Fin 2) * 3584 + 1 * (j 1 : Fin 3584).val; rw [e1]; omega)
  · exact iblk1_row m c t _ _ hrow k
  · exact iblk4_row m c t _ _ hrow k

/-- Every row of the result lies in the block of the point that works on it. -/
theorem cover8 (c : Dev nD) (i : S4096x3584.Idx) :
    ∃ t : Fin cfg0.N, (cfg0.win 8).flush t = true ∧ i ∈ ((cfg0.win 8).blk t).view.set := by
  have hN : cfg0.N = 32 := N_0
  have hi0 : (i 0 : Fin 4096).val < 4096 := (i 0 : Fin 4096).isLt
  have hi1 : (i 1 : Fin 3584).val < 3584 := (i 1 : Fin 3584).isLt
  have ht : (i 0 : Fin 4096).val / 128 < cfg0.N := by rw [hN]; omega
  refine ⟨⟨(i 0 : Fin 4096).val / 128, ht⟩, flush0_8 _, ?_⟩
  have e0 : win0_8.index ⟨(i 0 : Fin 4096).val / 128, ht⟩ (0 : Fin 2) = (i 0 : Fin 4096).val / 128 :=
    (blockIndex_8 ⟨(i 0 : Fin 4096).val / 128, ht⟩).1
  have e1 : win0_8.index ⟨(i 0 : Fin 4096).val / 128, ht⟩ (1 : Fin 2) = 0 :=
    (blockIndex_8 ⟨(i 0 : Fin 4096).val / 128, ht⟩).2
  show i ∈ ((View.whole main_v5_3).slice (win0_8.rect ⟨(i 0 : Fin 4096).val / 128, ht⟩)).set
  rw [View.set_slice_whole, Rect.mem_set_unit]
  intro a
  match a with
  | ⟨0, _⟩ =>
    show win0_8.index ⟨(i 0 : Fin 4096).val / 128, ht⟩ (0 : Fin 2) * 128 ≤ (i 0 : Fin 4096).val
      ∧ (i 0 : Fin 4096).val < win0_8.index ⟨(i 0 : Fin 4096).val / 128, ht⟩ (0 : Fin 2) * 128 + 128
    rw [e0]; omega
  | ⟨1, _⟩ =>
    show win0_8.index ⟨(i 0 : Fin 4096).val / 128, ht⟩ (1 : Fin 2) * 3584 ≤ (i 1 : Fin 3584).val
      ∧ (i 1 : Fin 3584).val < win0_8.index ⟨(i 0 : Fin 4096).val / 128, ht⟩ (1 : Fin 2) * 3584 + 3584
    rw [e1]; omega

/-- The result array after the run: the weighted sum of streams of every row of the merged arrays. -/
theorem final8
    (hblk : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_8 (F := Ideal) x0 x1 x2 x3 x4 = subgradRows (n := 128) x1 x4)
    (c : Dev nD) :
    (dats m 0 c).arrAt 8 cfg0.N = subgradRows (n := 4096) (V m c main_v1) (V m c main_v3) :=
  (dats m 0 c).arrAt_eq_of_cover 8 _ (fun t _ => flushed8_eq m hblk c t) (cover8 c)

end Cert.KernelIdeal.Arrays

end
-- ==== Proof.KernelRun.lean ====
/-
  The kernel's run, read: each of its four results as the specification's gradient of the argument arrays.

  Before its one grid the program merges the (sequence, batch) axes of every argument into rows; after it, it splits each
  result's rows back. The grid leaves, in each result array, the row-by-row gradient of the merged operands (the four
  array-level theorems, each from what the body leaves in one block — the hypotheses `hb5 … hb8`). Merging, computing row by
  row and splitting is the gradient over the arrays' own shapes.
-/
import proofs.«103172_j56564719288437_2_alg».proof.Proof.Gen.KernelIdeal.Frame
import proofs.«103172_j56564719288437_2_alg».proof.Proof.Spec
import proofs.«103172_j56564719288437_2_alg».proof.Proof.FlatSpec
import proofs.«103172_j56564719288437_2_alg».proof.Proof.ArrHRes
import proofs.«103172_j56564719288437_2_alg».proof.Proof.ArrHPost
import proofs.«103172_j56564719288437_2_alg».proof.Proof.ArrX
import proofs.«103172_j56564719288437_2_alg».proof.Proof.ArrSub
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.MixGrad

variable (m : (ℓ : Loc nD τ sig) → Buf (Elt Ideal) ℓ) (ρ : Dev nD → PrngReg)

/-! ## The merged operands, as the grid finds them -/

theorem V_v0 (c : Dev nD) : (V m c main_v0 : S4096x16.Idx → EReal)
    = shapeCast S4096x16 (m ((c.tc : Thread nD τ).loc main_arg0)) shapeCasts_S2048x2x4x4_S4096x16 := by
  show StableHlo.after hostOps0 (fun b => m (c, b)) (Proc.devRef .tc main_v0) = _
  after_results
  rfl

theorem V_v1 (c : Dev nD) : (V m c main_v1 : S4096x4.Idx → EReal)
    = shapeCast S4096x4 (m ((c.tc : Thread nD τ).loc main_arg1)) shapeCasts_S2048x2x4x1_S4096x4 := by
  show StableHlo.after hostOps0 (fun b => m (c, b)) (Proc.devRef .tc main_v1) = _
  after_results
  rfl

theorem V_v2 (c : Dev nD) : (V m c main_v2 : S4096x14336.Idx → EReal)
    = shapeCast S4096x14336 (m ((c.tc : Thread nD τ).loc main_arg2)) shapeCasts_S2048x2x14336_S4096x14336 := by
  show StableHlo.after hostOps0 (fun b => m (c, b)) (Proc.devRef .tc main_v2) = _
  after_results
  rfl

theorem V_v3 (c : Dev nD) : (V m c main_v3 : S4096x14336.Idx → EReal)
    = shapeCast S4096x14336 (m ((c.tc : Thread nD τ).loc main_arg4)) shapeCasts_S2048x2x14336_S4096x14336 := by
  show StableHlo.after hostOps0 (fun b => m (c, b)) (Proc.devRef .tc main_v3) = _
  after_results
  rfl

theorem V_v4 (c : Dev nD) : (V m c main_v4 : S4096x3584.Idx → EReal)
    = shapeCast S4096x3584 (m ((c.tc : Thread nD τ).loc main_arg3)) shapeCasts_S2048x2x3584_S4096x3584 := by
  show StableHlo.after hostOps0 (fun b => m (c, b)) (Proc.devRef .tc main_v4) = _
  after_results
  rfl

/-! ## The results, split back after the grid -/

theorem tail_v6 (c : Dev nD) : Pipeline.afterTail₀ cfgs (dats m) 0 (V0 m) [hostOps1] c main_v6
    = shapeCast S2048x2x4x4 ((dats m 0 c).arrAt 5 cfg0.N) shapeCasts_S4096x16_S2048x2x4x4 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5_0)
      = (dats m 0 c).arrAt 5 cfg0.N :=
    Pipeline.withArrays_arr spec0 launch0.win.arr_inj c _ _ 5
  rw [e]
  rfl

theorem tail_v7 (c : Dev nD) : Pipeline.afterTail₀ cfgs (dats m) 0 (V0 m) [hostOps1] c main_v7
    = shapeCast S2048x2x4x1 ((dats m 0 c).arrAt 6 cfg0.N) shapeCasts_S4096x4_S2048x2x4x1 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.tc.devRef main_v5_1)
      = (dats m 0 c).arrAt 6 cfg0.N :=
    Pipeline.withArrays_arr spec0 launch0.win.arr_inj c _ _ 6
  rw [e]
  rfl

theorem tail_v8 (c : Dev nD) : Pipeline.afterTail₀ cfgs (dats m) 0 (V0 m) [hostOps1] c main_v8
    = shapeCast S2048x2x14336 ((dats m 0 c).arrAt 7 cfg0.N) shapeCasts_S4096x14336_S2048x2x14336 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.tc.devRef main_v5_2)
      = (dats m 0 c).arrAt 7 cfg0.N :=
    Pipeline.withArrays_arr spec0 launch0.win.arr_inj c _ _ 7
  rw [e]
  rfl

theorem tail_v9 (c : Dev nD) : Pipeline.afterTail₀ cfgs (dats m) 0 (V0 m) [hostOps1] c main_v9
    = shapeCast S2048x2x3584 ((dats m 0 c).arrAt 8 cfg0.N) shapeCasts_S4096x3584_S2048x2x3584 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.tc.devRef main_v5_3)
      = (dats m 0 c).arrAt 8 cfg0.N :=
    Pipeline.withArrays_arr spec0 launch0.win.arr_inj c _ _ 8
  rw [e]
  rfl

/-! ## Each result is the specification's gradient -/

theorem result_v6 (hb5 : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_5 (F := Ideal) x0 x1 x2 x3 x4 = hresRows (n := 128) x2 x4) (c : Dev nD) :
    Pipeline.afterTail₀ cfgs (dats m) 0 (V0 m) [hostOps1] c main_v6 = gradHRes (m ((c.tc : Thread nD τ).loc main_arg2)) (m ((c.tc : Thread nD τ).loc main_arg4)) := by
  rw [tail_v6, final5 m hb5 c, V_v2, V_v3]
  exact split_hresRows _ _ _ _

theorem result_v7 (hb6 : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_6 (F := Ideal) x0 x1 x2 x3 x4 = hpostRows (n := 128) x3 x4) (c : Dev nD) :
    Pipeline.afterTail₀ cfgs (dats m) 0 (V0 m) [hostOps1] c main_v7 = gradHPost (m ((c.tc : Thread nD τ).loc main_arg3)) (m ((c.tc : Thread nD τ).loc main_arg4)) := by
  rw [tail_v7, final6 m hb6 c, V_v4, V_v3]
  exact split_hpostRows _ _ _ _ _

theorem result_v8 (hb7 : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_7 (F := Ideal) x0 x1 x2 x3 x4 = xgradRows (n := 128) x0 x4) (c : Dev nD) :
    Pipeline.afterTail₀ cfgs (dats m) 0 (V0 m) [hostOps1] c main_v8 = gradX (m ((c.tc : Thread nD τ).loc main_arg0)) (m ((c.tc : Thread nD τ).loc main_arg4)) := by
  rw [tail_v8, final7 m hb7 c, V_v0, V_v3]
  exact split_xgradRows _ _ _ _ _

theorem result_v9 (hb8 : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_8 (F := Ideal) x0 x1 x2 x3 x4 = subgradRows (n := 128) x1 x4) (c : Dev nD) :
    Pipeline.afterTail₀ cfgs (dats m) 0 (V0 m) [hostOps1] c main_v9 = gradSub (m ((c.tc : Thread nD τ).loc main_arg1)) (m ((c.tc : Thread nD τ).loc main_arg4)) := by
  rw [tail_v9, final8 m hb8 c, V_v1, V_v3]
  exact split_subgradRows _ _ _ _ _

/-! ## The run -/

/-- Every weakly fair execution of the program ends with the four results at the specification's gradients of the
    argument arrays, and the arguments as they were. -/
theorem run_value (hb5 : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_5 (F := Ideal) x0 x1 x2 x3 x4 = hresRows (n := 128) x2 x4)
    (hb6 : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_6 (F := Ideal) x0 x1 x2 x3 x4 = hpostRows (n := 128) x3 x4)
    (hb7 : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_7 (F := Ideal) x0 x1 x2 x3 x4 = xgradRows (n := 128) x0 x4)
    (hb8 : ∀ (x0 : Vec Ideal S128x16 .bf16) (x1 : Vec Ideal S128x4 .bf16) (x2 : Vec Ideal S128x14336 .bf16)
      (x3 : Vec Ideal S128x3584 .bf16) (x4 : Vec Ideal S128x14336 .bf16),
      out0_8 (F := Ideal) x0 x1 x2 x3 x4 = subgradRows (n := 128) x1 x4) :
    θ_run defs (onTc (τ := τ) (main (F := Ideal))) ⟨m, fun _ => 0, ρ⟩ (fun r => ∀ c : Dev nD,
      r.2.mem ((c.tc : Thread nD τ).loc main_v6) = gradHRes (m ((c.tc : Thread nD τ).loc main_arg2)) (m ((c.tc : Thread nD τ).loc main_arg4))
      ∧ r.2.mem ((c.tc : Thread nD τ).loc main_v7) = gradHPost (m ((c.tc : Thread nD τ).loc main_arg3)) (m ((c.tc : Thread nD τ).loc main_arg4))
      ∧ r.2.mem ((c.tc : Thread nD τ).loc main_v8) = gradX (m ((c.tc : Thread nD τ).loc main_arg0)) (m ((c.tc : Thread nD τ).loc main_arg4))
      ∧ r.2.mem ((c.tc : Thread nD τ).loc main_v9) = gradSub (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (result_v6 m hb5 c),
      ((h c).2 main_v7 (Pipeline.mem_restRefs_of main_v7 (by decide) (by decide))).trans (result_v7 m hb6 c),
      ((h c).2 main_v8 (Pipeline.mem_restRefs_of main_v8 (by decide) (by decide))).trans (result_v8 m hb7 c),
      ((h c).2 main_v9 (Pipeline.mem_restRefs_of main_v9 (by decide) (by decide))).trans (result_v9 m hb8 c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arrays

end
-- ==== Proof.RefSpec.lean ====
/-
  The reference program computes the four gradients of the specification.

  Each result of the reference, read at an index, is a finite sum of products of the inputs read at indices
  obtained by splitting a row-major position (a reshape of the hidden axis 14336 = 4 · 3584 into streams and lanes).
  At the extended reals the conversions between float widths are the identity and the initial value of a float
  sum is 0, so each result is literally the specification's sum once the index arithmetic is carried out.
-/
import proofs.«103172_j56564719288437_2_alg».proof.Proof.Gen.ReferenceIdeal.Read
import proofs.«103172_j56564719288437_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.ReferenceIdeal.Gen (h_S_)
open Cert.MixGrad (lane)

/-- Splitting the hidden axis: position `(s, b, r, k)` of the four-axis view is position
    `(s, b, r · 3584 + k)` of the three-axis array. -/
theorem split_lane (s : Fin 2048) (b : Fin 2) (r : Fin 4) (k : Fin 3584) :
    idx_main_v1 (ix4 s b r k) = ix3 s b (lane r k) := by
  have hs : s.val < 2048 := s.isLt
  have hb : b.val < 2 := b.isLt
  have hr : r.val < 4 := r.isLt
  have hk : k.val < 3584 := k.isLt
  funext a
  apply Fin.ext
  match a with
  | ⟨0, _⟩ => show (((s.val * 2 + b.val) * 4 + r.val) * 3584 + k.val) / 28672 = s.val; omega
  | ⟨1, _⟩ => show (((s.val * 2 + b.val) * 4 + r.val) * 3584 + k.val) / 14336 % 2 = b.val; omega
  | ⟨2, _⟩ => show (((s.val * 2 + b.val) * 4 + r.val) * 3584 + k.val) % 14336 = r.val * 3584 + k.val; omega

/-- d h_res: the contraction over the lanes of stream `r` of the gradient with stream `q` of the streams. -/
theorem ref_hres (x2 x4 : (⟨S2048x2x14336, .bf16⟩ : BufTy).Contents (Elt Ideal)) :
    val_main_v17 (F := Ideal) x2 x4 = Cert.MixGrad.gradHRes x2 x4 := by
  funext i
  obtain ⟨s, b, r, q, rfl⟩ : ∃ (s : Fin 2048) (b : Fin 2) (r : Fin 4) (q : Fin 4), i = ix4 s b r q :=
    ⟨i 0, i 1, i 2, i 3, eq_ix4 i⟩
  rw [val_main_v17_apply, Ideal.truncf_def, val_main_v8_apply]
  unfold Cert.MixGrad.gradHRes
  refine Finset.sum_congr rfl fun k _ => ?_
  have el : lidx_main_v8 (ix4 s b r q) k = ix4 s b r k := funext fun a => by
    match a with
    | ⟨0, _⟩ => rfl
    | ⟨1, _⟩ => rfl
    | ⟨2, _⟩ => rfl
    | ⟨3, _⟩ => rfl
  have er : ridx_main_v8 (ix4 s b r q) k = ix4 s b q k := funext fun a => by
    match a with
    | ⟨0, _⟩ => rfl
    | ⟨1, _⟩ => rfl
    | ⟨2, _⟩ => rfl
    | ⟨3, _⟩ => rfl
  rw [el, er, val_main_v5_apply, val_main_v4_apply, Ideal.extf_def, val_main_v1_apply, val_main_v0_apply,
    Ideal.extf_def]
  show x4 (idx_main_v1 (ix4 s b r k)) * x2 (idx_main_v1 (ix4 s b q k)) = _
  rw [split_lane, split_lane]

/-- The single stream seen from position `(s, b, r, k)` of the four-axis view: its own position `(s, b, k)`,
    whatever the stream `r` (a unit axis is inserted, then repeated along the streams). -/
theorem single_lane (s : Fin 2048) (b : Fin 2) (r : Fin 4) (k : Fin 3584) :
    idx_main_v3 (idx_main_v10 (ix4 s b r k)) = ix3 s b k := by
  have hs : s.val < 2048 := s.isLt
  have hb : b.val < 2 := b.isLt
  have hk : k.val < 3584 := k.isLt
  funext a
  apply Fin.ext
  match a with
  | ⟨0, _⟩ => show (((s.val * 2 + b.val) * 1 + 0) * 3584 + k.val) / 7168 = s.val; omega
  | ⟨1, _⟩ => show (((s.val * 2 + b.val) * 1 + 0) * 3584 + k.val) / 3584 % 2 = b.val; omega
  | ⟨2, _⟩ => show (((s.val * 2 + b.val) * 1 + 0) * 3584 + k.val) % 3584 = k.val; omega

/-- The initial value of both float sums is the float of bits zero, which is 0. -/
theorem cst_zero : (val_main_cst (F := Ideal)) (Shape.Idx.first h_S_) = 0 := Ideal.ofBits_zero_f32

theorem cst_0_zero : (val_main_cst_0 (F := Ideal)) (Shape.Idx.first h_S_) = 0 := Ideal.ofBits_zero_f32

/-- d h_post: the sum over the lanes of stream `r` of the gradient times the single stream. -/
theorem ref_hpost (x3 : (⟨S2048x2x3584, .bf16⟩ : BufTy).Contents (Elt Ideal))
    (x4 : (⟨S2048x2x14336, .bf16⟩ : BufTy).Contents (Elt Ideal)) :
    val_main_v18 (F := Ideal) x3 x4 = Cert.MixGrad.gradHPost x3 x4 := by
  funext i
  obtain ⟨s, b, r, z, rfl⟩ : ∃ (s : Fin 2048) (b : Fin 2) (r : Fin 4) (z : Fin 1), i = ix4 s b r z :=
    ⟨i 0, i 1, i 2, i 3, eq_ix4 i⟩
  rw [val_main_v18_apply, Ideal.truncf_def, val_main_v13_apply, val_main_v12_apply, cst_zero, zero_add]
  unfold Cert.MixGrad.gradHPost
  refine Finset.sum_congr rfl fun k _ => ?_
  have e : idx_main_v12 (idx_main_v13 (ix4 s b r z)) k = ix4 s b r k := funext fun a => by
    match a with
    | ⟨0, _⟩ => rfl
    | ⟨1, _⟩ => rfl
    | ⟨2, _⟩ => rfl
    | ⟨3, _⟩ => rfl
  rw [e, val_main_v11_apply, Ideal.mulf_def, val_main_v5_apply, val_main_v4_apply, Ideal.extf_def,
    val_main_v10_apply, val_main_v3_apply, val_main_v2_apply, Ideal.extf_def]
  show x4 (idx_main_v1 (ix4 s b r k)) * x3 (idx_main_v3 (idx_main_v10 (ix4 s b r k))) = _
  rw [split_lane, single_lane]

/-- d x: column `q` of the row's matrix against the streams of the gradient, at the lane the hidden
    position `c = q · 3584 + h` names. -/
theorem ref_x (x0 : (⟨S2048x2x4x4, .bf16⟩ : BufTy).Contents (Elt Ideal))
    (x4 : (⟨S2048x2x14336, .bf16⟩ : BufTy).Contents (Elt Ideal)) :
    val_main_v20 (F := Ideal) x0 x4 = Cert.MixGrad.gradX x0 x4 := by
  funext i
  obtain ⟨s, b, c, rfl⟩ : ∃ (s : Fin 2048) (b : Fin 2) (c : Fin 14336), i = ix3 s b c :=
    ⟨i 0, i 1, i 2, eq_ix3 i⟩
  have hs : s.val < 2048 := s.isLt
  have hb : b.val < 2 := b.isLt
  have hc : c.val < 14336 := c.isLt
  rw [val_main_v20_apply, Ideal.truncf_def, val_main_v19_apply, val_main_v9_apply]
  unfold Cert.MixGrad.gradX
  refine Finset.sum_congr rfl fun k _ => ?_
  have e1 : lidx_main_v9 (idx_main_v19 (ix3 s b c)) k = ix4 s b k (⟨c.val / 3584, by omega⟩ : Fin 4) :=
    funext fun a => Fin.ext (by
      match a with
      | ⟨0, _⟩ => show ((s.val * 2 + b.val) * 14336 + c.val) / 28672 = s.val; omega
      | ⟨1, _⟩ => show ((s.val * 2 + b.val) * 14336 + c.val) / 14336 % 2 = b.val; omega
      | ⟨2, _⟩ => rfl
      | ⟨3, _⟩ => show ((s.val * 2 + b.val) * 14336 + c.val) / 3584 % 4 = c.val / 3584; omega)
  have e2 : ridx_main_v9 (idx_main_v19 (ix3 s b c)) k
      = ix4 s b k (⟨c.val % 3584, Nat.mod_lt _ (by decide)⟩ : Fin 3584) :=
    funext fun a => Fin.ext (by
      match a with
      | ⟨0, _⟩ => show ((s.val * 2 + b.val) * 14336 + c.val) / 28672 = s.val; omega
      | ⟨1, _⟩ => show ((s.val * 2 + b.val) * 14336 + c.val) / 14336 % 2 = b.val; omega
      | ⟨2, _⟩ => rfl
      | ⟨3, _⟩ => show ((s.val * 2 + b.val) * 14336 + c.val) % 3584 = c.val % 3584; omega)
  rw [e1, e2, val_main_v6_apply, Ideal.extf_def, val_main_v5_apply, val_main_v4_apply, Ideal.extf_def]
  show x0 _ * x4 (idx_main_v1 (ix4 s b k (⟨c.val % 3584, Nat.mod_lt _ (by decide)⟩ : Fin 3584))) = _
  rw [split_lane]

/-- d s: the row's 4-vector against the streams of the gradient (the reference multiplies in the other order). -/
theorem ref_sub (x1 : (⟨S2048x2x4x1, .bf16⟩ : BufTy).Contents (Elt Ideal))
    (x4 : (⟨S2048x2x14336, .bf16⟩ : BufTy).Contents (Elt Ideal)) :
    val_main_v21 (F := Ideal) x1 x4 = Cert.MixGrad.gradSub x1 x4 := by
  funext i
  obtain ⟨s, b, h, rfl⟩ : ∃ (s : Fin 2048) (b : Fin 2) (h : Fin 3584), i = ix3 s b h :=
    ⟨i 0, i 1, i 2, eq_ix3 i⟩
  rw [val_main_v21_apply, Ideal.truncf_def, val_main_v16_apply, cst_0_zero, zero_add]
  unfold Cert.MixGrad.gradSub
  refine Finset.sum_congr rfl fun k _ => ?_
  have e : idx_main_v16 (ix3 s b h) k = ix4 s b k h := funext fun a => by
    match a with
    | ⟨0, _⟩ => rfl
    | ⟨1, _⟩ => rfl
    | ⟨2, _⟩ => rfl
    | ⟨3, _⟩ => rfl
  have e' : idx_main_v14 (ix4 s b k h) = ix4 s b k (0 : Fin 1) := funext fun a => by
    match a with
    | ⟨0, _⟩ => rfl
    | ⟨1, _⟩ => rfl
    | ⟨2, _⟩ => rfl
    | ⟨3, _⟩ => rfl
  rw [e, val_main_v15_apply, Ideal.mulf_def, val_main_v5_apply, val_main_v4_apply, Ideal.extf_def,
    val_main_v14_apply, val_main_v7_apply, Ideal.extf_def, e']
  show x4 (idx_main_v1 (ix4 s b k h)) * x1 (ix4 s b k (0 : Fin 1)) = _
  rw [split_lane, mul_comm]

end Cert.ReferenceIdeal.RefValue

end
-- ==== Proof.lean ====
/-
  The backward pass of a four-stream mixing layer: a tiled kernel against its plain reference, as exact real arithmetic.

  Per sequence position and batch element the layer keeps four streams of width 3584, mixes them by a 4×4 matrix
  `h_res` and adds the sublayer's output weighted by a 4-vector `h_post`. Given the gradient `g` of the mixed streams, the
  backward pass returns
    d h_res (r, q) = ∑ₕ g(r, h) · x(q, h),        d h_post (r) = ∑ₕ g(r, h) · s(h),
    d x (q, h)     = ∑ᵣ h_res(r, q) · g(r, h),    d s (h)      = ∑ᵣ h_post(r) · g(r, h)
  (Proof/Spec.lean). The kernel merges (sequence, batch) into 4096 rows, works on 128 rows per grid point with explicit
  multiply-and-add over the four streams and lane sums over the hidden axis, and splits the rows back; the reference uses
  two batched contractions and two reductions over the arrays' own shapes. Over the extended reals, where every float
  operation is exact and a change of float width is the identity, both are these four finite sums: the kernel's by what
  its body leaves in one block (Proof/Block*.lean), row-locality and the tiling of the rows by the grid (Proof/Arr*.lean),
  and the merging and splitting of axes (Proof/Reshape.lean, Proof/FlatSpec.lean, Proof/KernelRun.lean); the reference's
  operation by operation (Proof/RefSpec.lean). Only commutativity and associativity of addition and multiplication and
  `0 + a = a` are used, so the finiteness of the inputs is never opened.
-/
import proofs.«103172_j56564719288437_2_alg».proof.Defs
import proofs.«103172_j56564719288437_2_alg».proof.Proof.Gen.Kernel
import proofs.«103172_j56564719288437_2_alg».proof.Proof.Gen.Kernel.Skeleton
import proofs.«103172_j56564719288437_2_alg».proof.Proof.Gen.Kernel.Launch
import proofs.«103172_j56564719288437_2_alg».proof.Proof.Gen.Kernel.Points
import proofs.«103172_j56564719288437_2_alg».proof.Proof.Gen.Kernel.Frame
import proofs.«103172_j56564719288437_2_alg».proof.Proof.Gen.KernelIdeal
import proofs.«103172_j56564719288437_2_alg».proof.Proof.Gen.KernelIdeal.Skeleton
import proofs.«103172_j56564719288437_2_alg».proof.Proof.Gen.KernelIdeal.Launch
import proofs.«103172_j56564719288437_2_alg».proof.Proof.Gen.KernelIdeal.Points
import proofs.«103172_j56564719288437_2_alg».proof.Proof.Gen.KernelIdeal.Frame
import proofs.«103172_j56564719288437_2_alg».proof.Proof.Gen.ReferenceIdeal
import proofs.«103172_j56564719288437_2_alg».proof.Proof.Gen.ReferenceIdeal.Run
import proofs.«103172_j56564719288437_2_alg».proof.Proof.Gen.ReferenceIdeal.Read
import proofs.«103172_j56564719288437_2_alg».proof.Proof.Gen.Pre_finite_inputs
import proofs.«103172_j56564719288437_2_alg».proof.Proof.Spec
import proofs.«103172_j56564719288437_2_alg».proof.Proof.BlockHRes
import proofs.«103172_j56564719288437_2_alg».proof.Proof.BlockHPost
import proofs.«103172_j56564719288437_2_alg».proof.Proof.BlockX
import proofs.«103172_j56564719288437_2_alg».proof.Proof.BlockSub
import proofs.«103172_j56564719288437_2_alg».proof.Proof.KernelRun
import proofs.«103172_j56564719288437_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no grid: its frame is its run with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- Reading the kernel over the extended reals rewrote no operation. -/
theorem preserves : Cert.preserves_Kernel_KernelIdeal := trivial

/-- From memories agreeing on the arguments, the kernel and the reference both end with the four gradients of the
    specification: the kernel by its run read back, the reference operation by operation. -/
theorem algebraic : Cert.algebraic_KernelIdeal_ReferenceIdeal := by
  intro m ρ m' ρ' _ hagree
  refine ⟨fun c => Cert.MixGrad.gradHRes (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    fun c => Cert.MixGrad.gradHPost (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.MixGrad.gradX (m ((c.tc : Thread Cert.KernelIdeal.nD Cert.KernelIdeal.τ).loc Cert.KernelIdeal.main_arg0)) (m ((c.tc : Thread Cert.KernelIdeal.nD Cert.KernelIdeal.τ).loc Cert.KernelIdeal.main_arg4)),
    fun c => Cert.MixGrad.gradSub (m ((c.tc : Thread Cert.KernelIdeal.nD Cert.KernelIdeal.τ).loc Cert.KernelIdeal.main_arg1)) (m ((c.tc : Thread Cert.KernelIdeal.nD Cert.KernelIdeal.τ).loc Cert.KernelIdeal.main_arg4)),
    Cert.KernelIdeal.Arrays.run_value m ρ Cert.KernelIdeal.Blocks.out5_eq Cert.KernelIdeal.Blocks.out6_eq Cert.KernelIdeal.Blocks.out7_eq Cert.KernelIdeal.Blocks.out8_eq, ?_⟩
  refine (θ_run Cert.ReferenceIdeal.defs _ _).mono (fun _ h c => ?_) (Cert.ReferenceIdeal.Value.run (F := Ideal) m' ρ')
  obtain ⟨h17, h18, h20, h21, ha0, ha1, ha2, ha3, ha4⟩ := h c
  obtain ⟨e0, e1, e2, e3, e4⟩ := hagree c
  refine ⟨?_, ?_, ?_, ?_, ha0, ha1, ha2, ha3, ha4⟩
  · rw [h17, Cert.ReferenceIdeal.Read.val_main_v17_eq, Cert.ReferenceIdeal.RefValue.ref_hres, e2, e4]
  · rw [h18, Cert.ReferenceIdeal.Read.val_main_v18_eq, Cert.ReferenceIdeal.RefValue.ref_hpost, e3, e4]
  · rw [h20, Cert.ReferenceIdeal.Read.val_main_v20_eq, Cert.ReferenceIdeal.RefValue.ref_x, e0, e4]
  · rw [h21, Cert.ReferenceIdeal.Read.val_main_v21_eq, Cert.ReferenceIdeal.RefValue.ref_sub, e1, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
